-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x64 .f32) (main_arg3 : FVec F S64 .f32) (main_arg4 : FVec F S64x16 .f32) (main_arg5 : FVec F S16 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x512 : Shape := ⟨2, ![5000, 512]⟩
abbrev S5000x64 : Shape := ⟨2, ![5000, 64]⟩
abbrev S850000x64 : Shape := ⟨2, ![850000, 64]⟩
abbrev S1x64 : Shape := ⟨2, ![1, 64]⟩
abbrev S50000x16 : Shape := ⟨2, ![50000, 16]⟩
abbrev S5000x16 : Shape := ⟨2, ![5000, 16]⟩
abbrev S850000x16 : Shape := ⟨2, ![850000, 16]⟩
abbrev S1x16 : Shape := ⟨2, ![1, 16]⟩
abbrev S5000 : Shape := ⟨1, ![5000]⟩
abbrev S5000x1 : Shape := ⟨2, ![5000, 1]⟩

abbrev nBuf : Space → Nat
  | .hbm => 80
  | .vmem => 20
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x64, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x64, .f32⟩
  | .hbm, ⟨52, _⟩ => ⟨S850000x1, .f32⟩
  | .hbm, ⟨53, _⟩ => ⟨S850000x64, .f32⟩
  | .hbm, ⟨54, _⟩ => ⟨S850000x64, .f32⟩
  | .hbm, ⟨55, _⟩ => ⟨S_, .f32⟩
  | .hbm, ⟨56, _⟩ => ⟨S50000x64, .f32⟩
  | .hbm, ⟨57, _⟩ => ⟨S850000x1, .i32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x16, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000x16, .f32⟩
  | .hbm, ⟨71, _⟩ => ⟨S850000x1, .f32⟩
  | .hbm, ⟨72, _⟩ => ⟨S850000x16, .f32⟩
  | .hbm, ⟨73, _⟩ => ⟨S850000x16, .f32⟩
  | .hbm, ⟨74, _⟩ => ⟨S_, .f32⟩
  | .hbm, ⟨75, _⟩ => ⟨S50000x16, .f32⟩
  | .hbm, ⟨76, _⟩ => ⟨S850000x1, .i32⟩
  | .hbm, ⟨77, _⟩ => ⟨S50000x16, .f32⟩
  | .hbm, ⟨78, _⟩ => ⟨S1x16, .f32⟩
  | .hbm, ⟨79, _⟩ => ⟨S50000x16, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S1x16, .f32⟩
  | .local _ .vmem, ⟨18, _⟩ => ⟨S5000x16, .f32⟩
  | .local _ .vmem, ⟨19, _⟩ => ⟨S5000x16, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S5000x16_S5000x16 : S5000x16.ShapeCasts S5000x16
  reduces_S5000x16_S5000 : S5000x16.Reduces [1] S5000
  shapeCasts_S5000_S5000x1 : S5000.ShapeCasts S5000x1
  broadcasts_S5000x1_S5000x16 : S5000x1.Broadcasts S5000x16
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x64_S5000x64_1_0_0_1_n_n_wf : DotDims.WF S5000x512 S512x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x16_S5000x16_1_0_0_1_n_n_wf : DotDims.WF S5000x64 S64x16 S5000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S50000x16.size a
  hwx2_2 : ∀ i : grid2.Coords, EltTy.bits .f32 = 32 ∨ (Rect.block (s := S50000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S50000x16.size a
  hwx3_0 : ∀ i : grid3.Coords, EltTy.bits .f32 = 32 ∨ (Rect.block (s := S50000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S50000x16.size a
  hwx3_2 : ∀ i : grid3.Coords, EltTy.bits .f32 = 32 ∨ (Rect.block (s := S50000x16) S5000x16.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x64 : Shape := ⟨2, ![512, 64]⟩
abbrev S64 : Shape := ⟨1, ![64]⟩
abbrev S64x16 : Shape := ⟨2, ![64, 16]⟩
abbrev S16 : Shape := ⟨1, ![16]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x16 : Shape := ⟨2, ![50000, 16]⟩
abbrev S850000x16 : Shape := ⟨2, ![850000, 16]⟩
abbrev S1x16 : Shape := ⟨2, ![1, 16]⟩
abbrev S50000x1 : Shape := ⟨2, ![50000, 1]⟩

abbrev nBuf : Space → Nat
  | .hbm => 100
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S50000x64, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x64, .f32⟩
  | .hbm, ⟨52, _⟩ => ⟨S850000x1, .f32⟩
  | .hbm, ⟨53, _⟩ => ⟨S850000x64, .f32⟩
  | .hbm, ⟨54, _⟩ => ⟨S850000x64, .f32⟩
  | .hbm, ⟨55, _⟩ => ⟨S_, .f32⟩
  | .hbm, ⟨56, _⟩ => ⟨S50000x64, .f32⟩
  | .hbm, ⟨57, _⟩ => ⟨S850000x1, .i32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S50000x64, .f32⟩
  | .hbm, ⟨62, _⟩ => ⟨S_, .f32⟩
  | .hbm, ⟨63, _⟩ => ⟨S50000x64, .f32⟩
  | .hbm, ⟨64, _⟩ => ⟨S50000x64, .f32⟩
  | .hbm, ⟨65, _⟩ => ⟨S50000x16, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x16, .f32⟩
  | .hbm, ⟨75, _⟩ => ⟨S850000x1, .f32⟩
  | .hbm, ⟨76, _⟩ => ⟨S850000x16, .f32⟩
  | .hbm, ⟨77, _⟩ => ⟨S850000x16, .f32⟩
  | .hbm, ⟨78, _⟩ => ⟨S_, .f32⟩
  | .hbm, ⟨79, _⟩ => ⟨S50000x16, .f32⟩
  | .hbm, ⟨80, _⟩ => ⟨S850000x1, .i32⟩
  | .hbm, ⟨81, _⟩ => ⟨S50000x16, .f32⟩
  | .hbm, ⟨82, _⟩ => ⟨S1x16, .f32⟩
  | .hbm, ⟨83, _⟩ => ⟨S50000x16, .f32⟩
  | .hbm, ⟨84, _⟩ => ⟨S50000x16, .f32⟩
  | .hbm, ⟨85, _⟩ => ⟨S_, .f32⟩
  | .hbm, ⟨86, _⟩ => ⟨S50000, .f32⟩
  | .hbm, ⟨87, _⟩ => ⟨S_, .f32⟩
  | .hbm, ⟨88, _⟩ => ⟨S50000, .f32⟩
  | .hbm, ⟨89, _⟩ => ⟨S50000, .f32⟩
  | .hbm, ⟨90, _⟩ => ⟨S50000x1, .f32⟩
  | .hbm, ⟨91, _⟩ => ⟨S50000x16, .f32⟩
  | .hbm, ⟨92, _⟩ => ⟨S50000x16, .f32⟩
  | .hbm, ⟨93, _⟩ => ⟨S50000x16, .f32⟩
  | .hbm, ⟨94, _⟩ => ⟨S_, .f32⟩
  | .hbm, ⟨95, _⟩ => ⟨S50000, .f32⟩
  | .hbm, ⟨96, _⟩ => ⟨S50000x1, .f32⟩
  | .hbm, ⟨97, _⟩ => ⟨S50000x1, .f32⟩
  | .hbm, ⟨98, _⟩ => ⟨S50000x16, .f32⟩
  | .hbm, ⟨99, _⟩ => ⟨S50000x16, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v64 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x16_0_1 : S850000x1.BroadcastsInDim S850000x16 (![0, 1] : Fin 2 → Fin S850000x16.rank)
  bcast_S_S50000x16 : S_.BroadcastsInDim S50000x16 (![] : Fin 0 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  h_S_ : 0 < S_.numel
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x64_S50000x64_1_0_0_1_n_n_wf : DotDims.WF S50000x512 S512x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x16_S50000x16_1_0_0_1_n_n_wf : DotDims.WF S50000x64 S64x16 S50000x16 [1] [0] [0] [1] [] []
  gather_S50000x16_S850000x1_S850000x16_1_0_n_n_0_1_116_wf : GatherDims.WF S50000x16 S850000x1 S850000x16 [1] [0] [] [0] [] 1 ![1, 16]
  scatter_S50000x16_S850000x1_S850000x16_1_0_0_1_wf : ScatterDims.WF S50000x16 S850000x1 S850000x16 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S850000x1_S850000x16_1_0_n_n_0_1_116 : GatherDims S50000x16 S850000x1 S850000x16 where
  offsetDims := [1]
  collapsedSliceDims := [0]
  operandBatchingDims := []
  startIndicesBatchingDims := []
  startIndexMap := [0]
  indexVectorDim := 1
  sliceSizes := ![1, 16]
  wf := gather_S50000x16_S850000x1_S850000x16_1_0_n_n_0_1_116_wf
def scatter_S50000x16_S850000x1_S850000x16_1_0_0_1 : ScatterDims S50000x16 S850000x1 S850000x16 where
  updateWindowDims := [1]
  insertedWindowDims := [0]
  scatterDimsToOperandDims := [0]
  indexVectorDim := 1
  wf := scatter_S50000x16_S850000x1_S850000x16_1_0_0_1_wf

class Facts : Prop extends Facts₀ where

variable [Facts]
-- ==== Proof.KernelRun.lean ====
/-
  The kernel program's run with its result named.

  The program is seven segments: host operations, the first dense product, host operations (the first propagation),
  the bias-and-positive-part, the second dense product, host operations (the second propagation), and the bias with
  the row-wise log-softmax. The buffer contents at the segment boundaries are a fold from the launch memory
  (`Gen.W0` … `Gen.W7`); every weakly fair execution terminates with every unscoped buffer at the last boundary's
  contents. Read at the result buffer and at the six arguments this says: the result array ends at `Gen.W7` of the
  result buffer, and the arguments end as launched.
-/
import proofs.«142514_j84009560309789_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the result array ends at the last
    segment boundary's contents of the result buffer, and the six arguments end as launched. -/
theorem run_result : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunV

end
-- ==== Proof.Spec.lean ====
/-
  The two-layer graph convolution as ONE composition of whole-array functions, spelt with the reference program's
  own host operations.

  From the edge list `e : i32[2, 800000]` the program forms the source and destination columns with the self-loops
  appended (`srcIdx`, `dstIdx` : i32[850000]), the degree of every node as a scatter-add of ones at the destinations, the
  edge weights `edgeNorm e = d^(-1/2)[src] · d^(-1/2)[dst]` with `d = max(deg, 1)`, and then twice the same propagation
  `propagate h e = scatter-add over dst of h[src] · edgeNorm e`. Between the propagations stand a dense product, the
  bias with a `max(·, 0)`, a second dense product, and at the end the bias and a row-wise log-softmax:

      result = lsmRef (propagate16 (dense2 (biasRelu (propagate64 (dense1 x W1) e) b1row) W2) e + b2row).

  Negative indices are wrapped by the array's length before each gather (`wrapIdx`), as the program does.
  Every function is generic in the float instance; the certificate reads them at the exact one.
-/
import proofs.«142514_j84009560309789_1_alg».proof.ReferenceIdeal

noncomputable section

namespace Cert.Gcn

open Idealize.ShloMosaic Cert.ReferenceIdeal Cert.ReferenceIdeal.Facts₀ Cert.ReferenceIdeal.Facts

variable {F : FTy → Type} [FloatOps F] [Cert.ReferenceIdeal.Facts]

/-- An integer array of shape `s`. -/
abbrev IVec (F : FTy → Type) (s : Shape) : Type := (⟨s, .i32⟩ : BufTy).Contents (Elt F)

/-- Row 0 of the edge list, followed by the self-loops `0, 1, …, 49999`: each edge's source node. -/
def srcIdx (e : IVec F S2x800000) : IVec F S850000 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Row 1 of the edge list, followed by the self-loops: each edge's destination node. -/
def dstIdx (e : IVec F S2x800000) : IVec F S850000 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A negative index counts from the end: `v < 0 ? v + 50000 : v`, entry by entry. -/
def wrapIdx (v : IVec F S850000) : IVec F S850000 :=
  select (cmpi .slt v (broadcastInDim S850000 ![] bcast_S_S850000 (constantI S_ 32 0#32))) (addi v (broadcastInDim S850000 ![] bcast_S_S850000 (constantI S_ 32 50000#32))) v

/-- An index list as the one-column array a gather or a scatter takes. -/
def idxCol (v : IVec F S850000) : IVec F S850000x1 :=
  broadcastInDim S850000x1 ![0] bcast_S850000_S850000x1_0 v

/-- The degree of every node counting its self-loop: ones added at the destinations. -/
def degree (e : IVec F S2x800000) : FVec F S50000 .f32 :=
  Host.scatterAdd scatter_S50000_S850000x1_S850000_n_0_0_1 (broadcastInDim S50000 ![] bcast_S_S50000 (constant S_ .f32 0x00000000#32)) (idxCol (dstIdx e)) (broadcastInDim S850000 ![] bcast_S_S850000 (constant S_ .f32 0x3F800000#32))

/-- `max(deg, 1)^(-1/2)` per node. -/
def invSqrtDeg (e : IVec F S2x800000) : FVec F S50000 .f32 :=
  Host.rsqrt (maximumf (degree e) (broadcastInDim S50000 ![] bcast_S_S50000 (constant S_ .f32 0x3F800000#32)))

/-- The symmetric normalisation per edge: the source's factor times the destination's. -/
def edgeNorm (e : IVec F S2x800000) : FVec F S850000 .f32 :=
  mulf (Host.gather gather_S50000_S850000x1_S850000_n_0_n_n_0_1_1 (invSqrtDeg e) (idxCol (wrapIdx (srcIdx e))))
    (Host.gather gather_S50000_S850000x1_S850000_n_0_n_n_0_1_1 (invSqrtDeg e) (idxCol (wrapIdx (dstIdx e))))

/-- One propagation of 64 features: gather the source rows, weight each by its edge, add into the destination rows. -/
def propagate64 (h : FVec F S50000x64 .f32) (e : IVec F S2x800000) : FVec F S50000x64 .f32 :=
  Host.scatterAdd scatter_S50000x64_S850000x1_S850000x64_1_0_0_1 (broadcastInDim S50000x64 ![] bcast_S_S50000x64 (constant S_ .f32 0x00000000#32)) (idxCol (dstIdx e))
    (mulf (Host.gather gather_S50000x64_S850000x1_S850000x64_1_0_n_n_0_1_164 h (idxCol (wrapIdx (srcIdx e))))
      (broadcastInDim S850000x64 ![0, 1] bcast_S850000x1_S850000x64_0_1 (broadcastInDim S850000x1 ![0] bcast_S850000_S850000x1_0 (edgeNorm e))))

/-- The same propagation of 16 features. -/
def propagate16 (h : FVec F S50000x16 .f32) (e : IVec F S2x800000) : FVec F S50000x16 .f32 :=
  Host.scatterAdd scatter_S50000x16_S850000x1_S850000x16_1_0_0_1 (broadcastInDim S50000x16 ![] bcast_S_S50000x16 (constant S_ .f32 0x00000000#32)) (idxCol (dstIdx e))
    (mulf (Host.gather gather_S50000x16_S850000x1_S850000x16_1_0_n_n_0_1_116 h (idxCol (wrapIdx (srcIdx e))))
      (broadcastInDim S850000x16 ![0, 1] bcast_S850000x1_S850000x16_0_1 (broadcastInDim S850000x1 ![0] bcast_S850000_S850000x1_0 (edgeNorm e))))

/-- The first dense layer: `x · W1`. -/
def dense1 (x : FVec F S50000x512 .f32) (w : FVec F S512x64 .f32) : FVec F S50000x64 .f32 :=
  Host.dotGeneral dot_S50000x512_S512x64_S50000x64_1_0_0_1_n_n none x w

/-- The second dense layer: `a · W2`. -/
def dense2 (a : FVec F S50000x64 .f32) (w : FVec F S64x16 .f32) : FVec F S50000x16 .f32 :=
  Host.dotGeneral dot_S50000x64_S64x16_S50000x16_1_0_0_1_n_n none a w

/-- The bias row added to every row, then the positive part. -/
def biasRelu (a : FVec F S50000x64 .f32) (brow : FVec F S1x64 .f32) : FVec F S50000x64 .f32 :=
  maximumf (addf a (broadcastInDim S50000x64 ![0, 1] bcast_S1x64_S50000x64_0_1 brow)) (broadcastInDim S50000x64 ![] bcast_S_S50000x64 (constant S_ .f32 0x00000000#32))

/-- The bias row added to every row of the 16-column array. -/
def addBias16 (a : FVec F S50000x16 .f32) (brow : FVec F S1x16 .f32) : FVec F S50000x16 .f32 :=
  addf a (broadcastInDim S50000x16 ![0, 1] bcast_S1x16_S50000x16_0_1 brow)

/-- The row-wise log-softmax: with `M` the row's maximum, `(z − M) − log Σ exp (z − M)`. -/
def lsmRef (z : FVec F S50000x16 .f32) : FVec F S50000x16 .f32 :=
  let m0 : FVec F S50000 .f32 := Host.reduce FloatOps.maximumf z (constant S_ .f32 0xFF800000#32) reducesTo_S50000x16_S50000_d1 h_S_
  let m : FVec F S50000 .f32 := maximumf (broadcastInDim S50000 ![] bcast_S_S50000 (constant S_ .f32 0xFF800000#32)) m0
  let sh : FVec F S50000x16 .f32 := subf z (broadcastInDim S50000x16 ![0, 1] bcast_S50000x1_S50000x16_0_1 (broadcastInDim S50000x1 ![0] bcast_S50000_S50000x1_0 m))
  let s : FVec F S50000 .f32 := Host.reduceAdd (Host.exp sh) (constant S_ .f32 0x00000000#32) reducesTo_S50000x16_S50000_d1 h_S_
  subf sh (broadcastInDim S50000x16 ![0, 1] bcast_S50000x1_S50000x16_0_1 (Host.log (broadcastInDim S50000x1 ![0] bcast_S50000_S50000x1_0 s)))

/-- THE WHOLE NETWORK from the six arguments, the two bias vectors given as rows. -/
def gcn (x : FVec F S50000x512 .f32) (e : IVec F S2x800000) (w1 : FVec F S512x64 .f32) (b1row : FVec F S1x64 .f32)
    (w2 : FVec F S64x16 .f32) (b2row : FVec F S1x16 .f32) : FVec F S50000x16 .f32 :=
  lsmRef (addBias16 (propagate16 (dense2 (biasRelu (propagate64 (dense1 x w1) e) b1row) w2) e) b2row)

/-- A bias vector as a row, the reference's spelling (a broadcast along a new leading axis). -/
def biasRow64 (b : FVec F S64 .f32) : FVec F S1x64 .f32 := broadcastInDim S1x64 ![1] bcast_S64_S1x64_1 b
/-- The same for the 16-entry bias. -/
def biasRow16 (b : FVec F S16 .f32) : FVec F S1x16 .f32 := broadcastInDim S1x16 ![1] bcast_S16_S1x16_1 b

end Cert.Gcn

end
-- ==== Proof.FoldEntry.lean ====
/-
  The contents of the kernel program's buffers when its first region is entered: the host operations before it,
  read at the three values every later stretch reuses — the edges' source column, their destination column (both with
  the self-loops appended) and the per-edge normalisation — and at the two arguments the first region reads.
  Each is the specification's function of the edge list.
-/
import proofs.«142514_j84009560309789_1_alg».proof.Proof.Gen.KernelIdeal.Frame
import proofs.«142514_j84009560309789_1_alg».proof.Proof.Gen.ReferenceIdeal
import proofs.«142514_j84009560309789_1_alg».proof.Proof.Spec
import Idealize.ShloMosaic.Lib.StableHlo.Run
import Idealize.ShloMosaic.PureOps.Ideal

set_option maxRecDepth 16384

noncomputable section

namespace Cert.Gcn.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The program's two-piece concatenation (a column of the edge list, then the self-loops) as a function of its two
    pieces: under this name the simplifier can rewrite inside the pieces. -/
def cat2 (a : (⟨S800000, .i32⟩ : BufTy).Contents (Elt Ideal)) (b : (⟨S50000, .i32⟩ : BufTy).Contents (Elt Ideal)) :
    (⟨S850000, .i32⟩ : BufTy).Contents (Elt Ideal) :=
  concatenate S850000 0 [⟨S800000, a⟩, ⟨S50000, b⟩] Cert.KernelIdeal.Facts₀.concatenates_S800000_S50000_S850000_d0

theorem cat2_eq (a : (⟨S800000, .i32⟩ : BufTy).Contents (Elt Ideal)) (b : (⟨S50000, .i32⟩ : BufTy).Contents (Elt Ideal)) :
    concatenate S850000 0 [⟨S800000, a⟩, ⟨S50000, b⟩] Cert.KernelIdeal.Facts₀.concatenates_S800000_S50000_S850000_d0 = cat2 a b := rfl

/-- Reads a buffer after a literal stretch of host operations in one simplifier pass: every operation's result at its
    own buffer is its function of its operands' contents, and at any other buffer what was there. -/
macro "read_stretch" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_eq]))

/-- Entering the first region, the source column is the specification's. -/
theorem entry_src (c : Dev nD) :
    W1 m ρ c (Proc.devRef .tc main_v3) = Cert.Gcn.srcIdx (F := Ideal) (m ((c : Thread nD τ).loc main_arg1)) := by
  show StableHlo.after hostOps0 (W0 m ρ c) (Proc.devRef .tc main_v3) = _
  after_results
  rfl

/-- Entering the first region, the destination column is the specification's. -/
theorem entry_dst (c : Dev nD) :
    W1 m ρ c (Proc.devRef .tc main_v6) = Cert.Gcn.dstIdx (F := Ideal) (m ((c : Thread nD τ).loc main_arg1)) := by
  show StableHlo.after hostOps0 (W0 m ρ c) (Proc.devRef .tc main_v6) = _
  after_results
  rfl

/-- Entering the first region, the per-edge normalisation is the specification's. -/
theorem entry_norm (c : Dev nD) :
    W1 m ρ c (Proc.devRef .tc main_v28) = Cert.Gcn.edgeNorm (F := Ideal) (m ((c : Thread nD τ).loc main_arg1)) := by
  show StableHlo.after hostOps0 (W0 m ρ c) (Proc.devRef .tc main_v28) = _
  read_stretch
  rfl

end Cert.Gcn.Fold

end
-- ==== Proof.FoldStages.lean ====
/-
  The kernel program's buffer contents from one segment boundary to the next.

  A buffer that a stretch of host operations does not write, and that is not one of a region's arrays, keeps its
  contents across that segment; so the three values of the edge list computed before the first region (source column,
  destination column, per-edge normalisation) and the arguments are still there when the later stretches read them.
  The two later stretches are then the specification's propagation of whatever the preceding region left, and a bias
  vector viewed as a row.
-/
import proofs.«142514_j84009560309789_1_alg».proof.Proof.FoldEntry

set_option maxRecDepth 16384

noncomputable section

namespace Cert.Gcn.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- No operation of the named stretch writes the buffer: each operation writes one buffer, and it is another one. -/
macro "unwritten" ops:ident : tactic => `(tactic| (
  refine List.forall_iff_forall_mem.mp ?_
  simp only [$ops:ident, List.Forall, StableHlo.nullary_writes, StableHlo.unary_writes, StableHlo.binary_writes,
    StableHlo.ternary_writes, StableHlo.quaternary_writes, StableHlo.reshape_writes, StableHlo.binaryIndexed_writes, Finset.mem_singleton]
  repeat' apply And.intro
  all_goals exact StableHlo.devRef_ne_of_ne (by decide)))

/-! ## Across the first stretch: the arguments are as launched -/

theorem entry_arg0 (c : Dev nD) : W1 m ρ c (Proc.devRef .tc main_arg0) = m ((c : Thread nD τ).loc main_arg0) :=
  StableHlo.after_of_forall_not_mem (b := Proc.devRef .tc main_arg0) _ _ (by unwritten hostOps0)
theorem entry_arg2 (c : Dev nD) : W1 m ρ c (Proc.devRef .tc main_arg2) = m ((c : Thread nD τ).loc main_arg2) :=
  StableHlo.after_of_forall_not_mem (b := Proc.devRef .tc main_arg2) _ _ (by unwritten hostOps0)
theorem entry_arg3 (c : Dev nD) : W1 m ρ c (Proc.devRef .tc main_arg3) = m ((c : Thread nD τ).loc main_arg3) :=
  StableHlo.after_of_forall_not_mem (b := Proc.devRef .tc main_arg3) _ _ (by unwritten hostOps0)
theorem entry_arg4 (c : Dev nD) : W1 m ρ c (Proc.devRef .tc main_arg4) = m ((c : Thread nD τ).loc main_arg4) :=
  StableHlo.after_of_forall_not_mem (b := Proc.devRef .tc main_arg4) _ _ (by unwritten hostOps0)
theorem entry_arg5 (c : Dev nD) : W1 m ρ c (Proc.devRef .tc main_arg5) = m ((c : Thread nD τ).loc main_arg5) :=
  StableHlo.after_of_forall_not_mem (b := Proc.devRef .tc main_arg5) _ _ (by unwritten hostOps0)

/-! ## After the first region -/

theorem after0_src (c : Dev nD) : W2 m ρ c (Proc.devRef .tc main_v3) = Cert.Gcn.srcIdx (F := Ideal) (m ((c : Thread nD τ).loc main_arg1)) :=
  (W2_of_ne m ρ c main_v3 (by decide)).trans (entry_src m ρ c)
theorem after0_dst (c : Dev nD) : W2 m ρ c (Proc.devRef .tc main_v6) = Cert.Gcn.dstIdx (F := Ideal) (m ((c : Thread nD τ).loc main_arg1)) :=
  (W2_of_ne m ρ c main_v6 (by decide)).trans (entry_dst m ρ c)
theorem after0_norm (c : Dev nD) : W2 m ρ c (Proc.devRef .tc main_v28) = Cert.Gcn.edgeNorm (F := Ideal) (m ((c : Thread nD τ).loc main_arg1)) :=
  (W2_of_ne m ρ c main_v28 (by decide)).trans (entry_norm m ρ c)
theorem after0_arg3 (c : Dev nD) : W2 m ρ c (Proc.devRef .tc main_arg3) = m ((c : Thread nD τ).loc main_arg3) :=
  (W2_of_ne m ρ c main_arg3 (by decide)).trans (entry_arg3 m ρ c)
theorem after0_arg4 (c : Dev nD) : W2 m ρ c (Proc.devRef .tc main_arg4) = m ((c : Thread nD τ).loc main_arg4) :=
  (W2_of_ne m ρ c main_arg4 (by decide)).trans (entry_arg4 m ρ c)
theorem after0_arg5 (c : Dev nD) : W2 m ρ c (Proc.devRef .tc main_arg5) = m ((c : Thread nD τ).loc main_arg5) :=
  (W2_of_ne m ρ c main_arg5 (by decide)).trans (entry_arg5 m ρ c)

/-! ## The second stretch: the first propagation, and the first bias as a row -/

/-- The second stretch leaves the propagation of what the first region left. -/
theorem stretch1_agg (c : Dev nD) :
    W3 m ρ c (Proc.devRef .tc main_v42)
      = Cert.Gcn.propagate64 (F := Ideal) (W2 m ρ c (Proc.devRef .tc main_v29)) (m ((c : Thread nD τ).loc main_arg1)) := by
  show StableHlo.after hostOps1 (W2 m ρ c) (Proc.devRef .tc main_v42) = _
  read_stretch
  rw [after0_src, after0_dst, after0_norm]
  rfl

/-- … and the first bias vector viewed as a row. -/
theorem stretch1_bias (c : Dev nD) :
    W3 m ρ c (Proc.devRef .tc main_v43)
      = shapeCast S1x64 (m ((c : Thread nD τ).loc main_arg3)) Cert.KernelIdeal.Facts₀.shapeCasts_S64_S1x64 := by
  show StableHlo.after hostOps1 (W2 m ρ c) (Proc.devRef .tc main_v43) = _
  after_results
  rw [after0_arg3]
  rfl

theorem stretch1_src (c : Dev nD) : W3 m ρ c (Proc.devRef .tc main_v3) = Cert.Gcn.srcIdx (F := Ideal) (m ((c : Thread nD τ).loc main_arg1)) :=
  (StableHlo.after_of_forall_not_mem (b := Proc.devRef .tc main_v3) _ _ (by unwritten hostOps1)).trans (after0_src m ρ c)
theorem stretch1_dst (c : Dev nD) : W3 m ρ c (Proc.devRef .tc main_v6) = Cert.Gcn.dstIdx (F := Ideal) (m ((c : Thread nD τ).loc main_arg1)) :=
  (StableHlo.after_of_forall_not_mem (b := Proc.devRef .tc main_v6) _ _ (by unwritten hostOps1)).trans (after0_dst m ρ c)
theorem stretch1_norm (c : Dev nD) : W3 m ρ c (Proc.devRef .tc main_v28) = Cert.Gcn.edgeNorm (F := Ideal) (m ((c : Thread nD τ).loc main_arg1)) :=
  (StableHlo.after_of_forall_not_mem (b := Proc.devRef .tc main_v28) _ _ (by unwritten hostOps1)).trans (after0_norm m ρ c)
theorem stretch1_arg4 (c : Dev nD) : W3 m ρ c (Proc.devRef .tc main_arg4) = m ((c : Thread nD τ).loc main_arg4) :=
  (StableHlo.after_of_forall_not_mem (b := Proc.devRef .tc main_arg4) _ _ (by unwritten hostOps1)).trans (after0_arg4 m ρ c)
theorem stretch1_arg5 (c : Dev nD) : W3 m ρ c (Proc.devRef .tc main_arg5) = m ((c : Thread nD τ).loc main_arg5) :=
  (StableHlo.after_of_forall_not_mem (b := Proc.devRef .tc main_arg5) _ _ (by unwritten hostOps1)).trans (after0_arg5 m ρ c)

/-! ## After the second and third regions -/

theorem after1_arg4 (c : Dev nD) : W4 m ρ c (Proc.devRef .tc main_arg4) = m ((c : Thread nD τ).loc main_arg4) :=
  (W4_of_ne m ρ c main_arg4 (by decide)).trans (stretch1_arg4 m ρ c)

theorem after2_src (c : Dev nD) : W5 m ρ c (Proc.devRef .tc main_v3) = Cert.Gcn.srcIdx (F := Ideal) (m ((c : Thread nD τ).loc main_arg1)) :=
  (W5_of_ne m ρ c main_v3 (by decide)).trans ((W4_of_ne m ρ c main_v3 (by decide)).trans (stretch1_src m ρ c))
theorem after2_dst (c : Dev nD) : W5 m ρ c (Proc.devRef .tc main_v6) = Cert.Gcn.dstIdx (F := Ideal) (m ((c : Thread nD τ).loc main_arg1)) :=
  (W5_of_ne m ρ c main_v6 (by decide)).trans ((W4_of_ne m ρ c main_v6 (by decide)).trans (stretch1_dst m ρ c))
theorem after2_norm (c : Dev nD) : W5 m ρ c (Proc.devRef .tc main_v28) = Cert.Gcn.edgeNorm (F := Ideal) (m ((c : Thread nD τ).loc main_arg1)) :=
  (W5_of_ne m ρ c main_v28 (by decide)).trans ((W4_of_ne m ρ c main_v28 (by decide)).trans (stretch1_norm m ρ c))
theorem after2_arg5 (c : Dev nD) : W5 m ρ c (Proc.devRef .tc main_arg5) = m ((c : Thread nD τ).loc main_arg5) :=
  (W5_of_ne m ρ c main_arg5 (by decide)).trans ((W4_of_ne m ρ c main_arg5 (by decide)).trans (stretch1_arg5 m ρ c))

/-! ## The third stretch: the second propagation, and the second bias as a row -/

/-- The third stretch leaves the propagation of what the third region left. -/
theorem stretch3_agg (c : Dev nD) :
    W6 m ρ c (Proc.devRef .tc main_v58)
      = Cert.Gcn.propagate16 (F := Ideal) (W5 m ρ c (Proc.devRef .tc main_v45)) (m ((c : Thread nD τ).loc main_arg1)) := by
  show StableHlo.after hostOps3 (W5 m ρ c) (Proc.devRef .tc main_v58) = _
  read_stretch
  rw [after2_src, after2_dst, after2_norm]
  rfl

/-- … and the second bias vector viewed as a row. -/
theorem stretch3_bias (c : Dev nD) :
    W6 m ρ c (Proc.devRef .tc main_v59)
      = shapeCast S1x16 (m ((c : Thread nD τ).loc main_arg5)) Cert.KernelIdeal.Facts₀.shapeCasts_S16_S1x16 := by
  show StableHlo.after hostOps3 (W5 m ρ c) (Proc.devRef .tc main_v59) = _
  after_results
  rw [after2_arg5]
  rfl

end Cert.Gcn.Fold

end
-- ==== Proof.LibHostForms.lean ====
/-
  Host operations read as WHOLE-ARRAY equations at the ideal values, for arrays of any sizes: a plain matrix
  product `[N, A] × [A, B]` written as a `dot_general` is the sum over the inner coordinate; a slice `W[κ]` of a stack
  of matrices; a bias row broadcast over the rows of a matrix; a broadcast scalar constant; and the pointwise arithmetic.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace HostForms

open Idealize.ShloMosaic Idealize.ShloMosaic.ValueIdx

variable {N A B : Nat}

/-! ## (L1) A plain `dot_general` is the matrix-product sum -/

/-- The dimension numbers of a plain product `[N, A] × [A, B] → [N, B]`: the left operand's axis 1 is contracted with the
    right operand's axis 0; no batch axes. -/
abbrev plainDotDims (N A B : Nat)
    (wf : DotDims.WF ⟨2, ![N, A]⟩ ⟨2, ![A, B]⟩ ⟨2, ![N, B]⟩ [1] [0] [0] [1] [] []) :
    DotDims ⟨2, ![N, A]⟩ ⟨2, ![A, B]⟩ ⟨2, ![N, B]⟩ where
  lhsContracting := [1]
  rhsContracting := [0]
  lhsNonContracting := [0]
  rhsNonContracting := [1]
  lhsBatch := []
  rhsBatch := []
  wf := wf

section DotLiteral
variable (wf : DotDims.WF ⟨2, ![N, A]⟩ ⟨2, ![A, B]⟩ ⟨2, ![N, B]⟩ [1] [0] [0] [1] [] [])

/-- The left operand's row coordinate is the output's row. -/
theorem lhs_row (i : (⟨2, ![N, B]⟩ : Shape).Idx) (q : (plainDotDims N A B wf).contr.Idx) :
    ((plainDotDims N A B wf).lhsIdx i q 0).val = (i 0).val := by
  unfold DotDims.lhsIdx
  rw [dif_neg (show (0 : Fin 2) ∉ (plainDotDims N A B wf).lhsBatch from List.not_mem_nil),
    dif_pos (show (0 : Fin 2) ∈ (plainDotDims N A B wf).lhsNonContracting from List.mem_singleton.mpr rfl)]
  rfl

/-- The right operand's column coordinate is the output's column. -/
theorem rhs_col (i : (⟨2, ![N, B]⟩ : Shape).Idx) (q : (plainDotDims N A B wf).contr.Idx) :
    ((plainDotDims N A B wf).rhsIdx i q 1).val = (i 1).val := by
  unfold DotDims.rhsIdx
  rw [dif_neg (show (1 : Fin 2) ∉ (plainDotDims N A B wf).rhsBatch from List.not_mem_nil),
    dif_pos (show (1 : Fin 2) ∈ (plainDotDims N A B wf).rhsNonContracting from List.mem_singleton.mpr rfl)]
  rfl

/-- THE PRODUCT AT ROW `r`, COLUMN `f`, for the literal dimension numbers: the sum over the inner coordinate. -/
theorem dotGeneral_plainDims_apply {φ₁ φ₂ : FTy} (prec : Option ContractPrecision) (X : FVec Ideal ⟨2, ![N, A]⟩ φ₁)
    (W : FVec Ideal ⟨2, ![A, B]⟩ φ₂) (r : Fin N) (f : Fin B) :
    Host.dotGeneral (F := Ideal) (plainDotDims N A B wf) prec X W (ix2 r f) = ∑ k : Fin A, X (ix2 r k) * W (ix2 k f) := by
  show FloatOps.dotGeneral (plainDotDims N A B wf) prec .single X W (ix2 r f) = _
  rw [Ideal.dotGeneral_apply, ← Equiv.sum_comp (contrEquiv1 (plainDotDims N A B wf) A rfl rfl).symm]
  refine Finset.sum_congr rfl fun k _ => ?_
  have hk := contrEquiv1_symm_val (plainDotDims N A B wf) A rfl rfl k
  have el : (plainDotDims N A B wf).lhsIdx (ix2 r f) ((contrEquiv1 (plainDotDims N A B wf) A rfl rfl).symm k) = ix2 r k :=
    funext fun a => Fin.ext (by
      match a with
      | ⟨0, _⟩ => exact lhs_row wf _ _
      | ⟨1, _⟩ => exact (DotDims.lhsIdx_val_of_single (plainDotDims N A B wf) rfl _ _).trans hk)
  have er : (plainDotDims N A B wf).rhsIdx (ix2 r f) ((contrEquiv1 (plainDotDims N A B wf) A rfl rfl).symm k) = ix2 k f :=
    funext fun a => Fin.ext (by
      match a with
      | ⟨0, _⟩ => exact (DotDims.rhsIdx_val_of_single (plainDotDims N A B wf) rfl _ _).trans hk
      | ⟨1, _⟩ => exact rhs_col wf _ _)
  rw [el, er]

/-- The whole product, for the literal dimension numbers. -/
theorem dotGeneral_plainDims {φ₁ φ₂ : FTy} (prec : Option ContractPrecision) (X : FVec Ideal ⟨2, ![N, A]⟩ φ₁)
    (W : FVec Ideal ⟨2, ![A, B]⟩ φ₂) :
    Host.dotGeneral (F := Ideal) (plainDotDims N A B wf) prec X W
      = fun i => ∑ k : Fin A, X (ix2 (i 0) k) * W (ix2 k (i 1)) := by
  funext i
  obtain ⟨r, f, rfl⟩ : ∃ (r : Fin N) (f : Fin B), i = ix2 r f := ⟨i 0, i 1, eq_ix2 i⟩
  exact dotGeneral_plainDims_apply wf prec X W r f

end DotLiteral

/-- THE WHOLE PRODUCT, for ANY dimension numbers with the plain product's fields (a record given by its fields: the six
    hypotheses then hold by `rfl`): entry `(r, f)` is the sum over the inner coordinate `k` of `X (r, k) * W (k, f)`. -/
theorem dotGeneral_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = fun i => ∑ k : Fin A, X (ix2 (i 0) k) * W (ix2 k (i 1)) := by
  obtain ⟨lc, rc, ln, rn, lb, rb, wf⟩ := d
  simp only at h1 h2 h3 h4 h5 h6
  subst h1 h2 h3 h4 h5 h6
  exact dotGeneral_plainDims wf prec X W

/-- The same at row `r`, column `f`. -/
theorem dotGeneral_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (r : Fin N) (f : Fin B) :
    Host.dotGeneral (F := Ideal) d prec X W (ix2 r f) = ∑ k : Fin A, X (ix2 r k) * W (ix2 k f) :=
  congrFun (dotGeneral_mm d h1 h2 h3 h4 h5 h6 prec X W) (ix2 r f)

/-! ## (L2) One matrix of a stack: `W[κ]` -/

section Stack
variable {α : Type} {K : Nat}

/-- Slice `κ` of a stack `[K, A, B]` of matrices, cut out as `[1, A, B]` and viewed as `[A, B]`, is the matrix
    `(a, b) ↦ W (κ, a, b)`. -/
theorem slice_stack (κ : Fin K) (W : (⟨3, ![K, A, B]⟩ : Shape).Idx → α)
    (hs : (⟨3, ![K, A, B]⟩ : Shape).Slices ![κ.val, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![κ.val, 0, 0] W hs) hc
      = fun j => W (ix3 κ (j 0) (j 1)) := by
  funext j
  obtain ⟨a, b, rfl⟩ : ∃ (a : Fin A) (b : Fin B), j = ix2 a b := ⟨j 0, j 1, eq_ix2 j⟩
  rw [shapeCast_1ab_ab_apply]
  refine extractStridedSlice_apply _ W hs _ (ix3 κ a b) (fun c => ?_)
  match c with
  | ⟨0, _⟩ => show κ.val = κ.val + 0; rfl
  | ⟨1, _⟩ => show a.val = 0 + a.val; exact (Nat.zero_add _).symm
  | ⟨2, _⟩ => show b.val = 0 + b.val; exact (Nat.zero_add _).symm

/-- The first matrix of a stack of three. -/
theorem slice_stack3_0 (W : (⟨3, ![3, A, B]⟩ : Shape).Idx → α)
    (hs : (⟨3, ![3, A, B]⟩ : Shape).Slices ![0, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![0, 0, 0] W hs) hc
      = fun j => W (ix3 (0 : Fin 3) (j 0) (j 1)) :=
  slice_stack (0 : Fin 3) W hs hc

/-- The second matrix of a stack of three. -/
theorem slice_stack3_1 (W : (⟨3, ![3, A, B]⟩ : Shape).Idx → α)
    (hs : (⟨3, ![3, A, B]⟩ : Shape).Slices ![1, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![1, 0, 0] W hs) hc
      = fun j => W (ix3 (1 : Fin 3) (j 0) (j 1)) :=
  slice_stack (1 : Fin 3) W hs hc

/-- The third matrix of a stack of three. -/
theorem slice_stack3_2 (W : (⟨3, ![3, A, B]⟩ : Shape).Idx → α)
    (hs : (⟨3, ![3, A, B]⟩ : Shape).Slices ![2, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![2, 0, 0] W hs) hc
      = fun j => W (ix3 (2 : Fin 3) (j 0) (j 1)) :=
  slice_stack (2 : Fin 3) W hs hc

end Stack

/-! ## (L3) A bias row broadcast over the rows of a matrix -/

section Bias
variable {α : Type}

/-- A vector `[B]` made a row `[1, B]` by a broadcast, read at `(0, f)`. -/
theorem bcast_row_apply (b : (⟨1, ![B]⟩ : Shape).Idx → α)
    (h1 : (⟨1, ![B]⟩ : Shape).BroadcastsInDim ⟨2, ![1, B]⟩ ![1]) (u : Fin 1) (f : Fin B) :
    broadcastInDim ⟨2, ![1, B]⟩ ![1] h1 b (ix2 u f) = b (ix1 f) := by
  refine broadcastInDim_apply _ h1 b _ (ix1 f) (fun c => ?_)
  match c with
  | ⟨0, _⟩ =>
    show f.val = if B = 1 then 0 else f.val
    split_ifs with hB
    · have := f.isLt; omega
    · rfl

/-- A row `[1, B]` repeated down the `N` rows of a matrix, read at `(n, f)`. -/
theorem bcast_rows_apply (v : (⟨2, ![1, B]⟩ : Shape).Idx → α)
    (h2 : (⟨2, ![1, B]⟩ : Shape).BroadcastsInDim ⟨2, ![N, B]⟩ ![0, 1]) (n : Fin N) (f : Fin B) :
    broadcastInDim ⟨2, ![N, B]⟩ ![0, 1] h2 v (ix2 n f) = v (ix2 (0 : Fin 1) f) := by
  refine broadcastInDim_apply _ h2 v _ (ix2 (0 : Fin 1) f) (fun c => ?_)
  match c with
  | ⟨0, _⟩ =>
    show (0 : ℕ) = if (1 : ℕ) = 1 then 0 else n.val
    rw [if_pos rfl]
  | ⟨1, _⟩ =>
    show f.val = if B = 1 then 0 else f.val
    split_ifs with hB
    · have := f.isLt; omega
    · rfl

/-- (a) THE BIAS, two broadcasts: a vector `[B]` made a row and repeated down the rows is `(n, f) ↦ b f`. -/
theorem bias_bcast_bcast (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![N, B]⟩ ![0, 1]) :
    broadcastInDim ⟨2, ![N, B]⟩ ![0, 1] h2 (broadcastInDim ⟨2, ![1, B]⟩ ![1] h1 b) = fun i => b (ix1 (i 1)) := by
  funext i
  obtain ⟨n, f, rfl⟩ : ∃ (n : Fin N) (f : Fin B), i = ix2 n f := ⟨i 0, i 1, eq_ix2 i⟩
  rw [bcast_rows_apply, bcast_row_apply]
  rfl

/-- (b) THE BIAS, a shape cast then a broadcast: a vector `[B]` viewed as a row and repeated down the rows is
    `(n, f) ↦ b f`. -/
theorem bias_cast_bcast (b : (⟨1, ![B]⟩ : Shape).Idx → α)
    (hc : (⟨1, ![B]⟩ : Shape).ShapeCasts ⟨2, ![1, B]⟩)
    (h2 : (⟨2, ![1, B]⟩ : Shape).BroadcastsInDim ⟨2, ![N, B]⟩ ![0, 1]) :
    broadcastInDim ⟨2, ![N, B]⟩ ![0, 1] h2 (shapeCast ⟨2, ![1, B]⟩ b hc) = fun i => b (ix1 (i 1)) := by
  funext i
  obtain ⟨n, f, rfl⟩ : ∃ (n : Fin N) (f : Fin B), i = ix2 n f := ⟨i 0, i 1, eq_ix2 i⟩
  rw [bcast_rows_apply, shapeCast_a_1a_apply]
  rfl

/-- (c) A vector `[B]` viewed as a row, read at `(0, f)`. -/
theorem cast_row_apply (b : (⟨1, ![B]⟩ : Shape).Idx → α) (hc : (⟨1, ![B]⟩ : Shape).ShapeCasts ⟨2, ![1, B]⟩)
    (f : Fin B) : (shapeCast ⟨2, ![1, B]⟩ b hc) (ix2 (0 : Fin 1) f) = b (ix1 f) :=
  shapeCast_a_1a_apply b hc 0 f

end Bias

/-! ## (L4) A broadcast scalar -/

/-- A scalar array broadcast to any shape is constant. -/
theorem bcast_scalar {α : Type} (s : Shape) (c : (⟨0, ![]⟩ : Shape).Idx → α)
    (h : (⟨0, ![]⟩ : Shape).BroadcastsInDim s ![]) : broadcastInDim s ![] h c = fun _ => c ix0 := by
  funext j
  exact broadcastInDim_apply _ h c j ix0 (fun a => a.elim0)

/-- A scalar float constant broadcast to any shape is the extended real its word encodes, everywhere. -/
theorem bcast_constant {φ : FTy} (s : Shape) (w : BitVec φ.bits) (h : (⟨0, ![]⟩ : Shape).BroadcastsInDim s ![]) :
    broadcastInDim s ![] h (constant (F := Ideal) ⟨0, ![]⟩ φ w) = fun _ => Ideal.ofBits φ w := by
  rw [bcast_scalar]
  rfl

/-- The `f32` word `0x40000000` is the real number 2. -/
theorem ofBits_two_f32 : Ideal.ofBits .f32 0x40000000#32 = ((2 : ℝ) : EReal) := by
  simp [Ideal.ofBits, Ideal.ieee]
  norm_cast
  norm_num

/-! ## (L5) Pointwise arithmetic on whole arrays -/

section Pointwise
variable {s : Shape} {φ : FTy}

/-- A sum of arrays is the pointwise sum. -/
theorem addf_fun (a b : FVec Ideal s φ) : addf a b = fun i => a i + b i := rfl
/-- A difference of arrays is the pointwise difference. -/
theorem subf_fun (a b : FVec Ideal s φ) : subf a b = fun i => a i - b i := rfl
/-- A product of arrays is the pointwise product. -/
theorem mulf_fun (a b : FVec Ideal s φ) : mulf a b = fun i => a i * b i := rfl
/-- A maximum of arrays is the pointwise maximum. -/
theorem maximumf_fun (a b : FVec Ideal s φ) : maximumf a b = fun i => max (a i) (b i) := rfl
/-- A negated array is the pointwise negation. -/
theorem negf_fun (a : FVec Ideal s φ) : negf a = fun i => - a i := rfl
/-- A narrowing change of float format is the identity on extended reals. -/
theorem truncf_fun {ψ : FTy} (a : FVec Ideal s φ) (h : ψ.bits < φ.bits) : (truncf ψ a h : FVec Ideal s ψ) = a := rfl
/-- A widening change of float format is the identity on extended reals. -/
theorem extf_fun {ψ : FTy} (a : FVec Ideal s φ) (h : φ.bits < ψ.bits) : (extf ψ a h : FVec Ideal s ψ) = a := rfl

end Pointwise

end HostForms

end
-- ==== Proof.LibMatmulForms.lean ====
/-
  A kernel matrix product `[N, A] × [A, B]` accumulated into `acc`, at the ideal instance, read at row `r` and column
  `f`: the accumulator's entry plus the sum over the inner coordinate `k` of `X (r, k) · W (k, f)` — for any dimension
  numbers whose fields are the plain product's (contract the left operand's axis 1 with the right operand's axis 0,
  no batch axes). The host's `dot_general` with the same dimension numbers is the same sum without the accumulator, so
  the statement is read off that one.
-/
import proofs.«142514_j84009560309789_1_alg».proof.Proof.LibHostForms

noncomputable section

open scoped BigOperators

namespace MatmulForms

open Idealize.ShloMosaic Idealize.ShloMosaic.ValueIdx

variable {N A B : Nat}

/-- The kernel's product at `(r, f)`: the accumulator there plus the inner sum. -/
theorem matmul_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (acc : FVec Ideal ⟨2, ![N, B]⟩ .f32) (r : Fin N) (f : Fin B) :
    FloatOps.matmul d prec X W acc (ix2 r f) = acc (ix2 r f) + ∑ k : Fin A, X (ix2 r k) * W (ix2 k f) := by
  have e := HostForms.dotGeneral_mm_apply d h1 h2 h3 h4 h5 h6 prec X W r f
  rw [show Host.dotGeneral (F := Ideal) d prec X W (ix2 r f) = FloatOps.dotGeneral d prec .single X W (ix2 r f) from rfl,
    Ideal.dotGeneral_apply] at e
  rw [Ideal.matmul_apply, e]

/-- Into the zero accumulator: the inner sum alone. -/
theorem matmul_zero_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) (r : Fin N) (f : Fin B) :
    FloatOps.matmul d prec X W (constant ⟨2, ![N, B]⟩ .f32 0x00000000#32) (ix2 r f) = ∑ k : Fin A, X (ix2 r k) * W (ix2 k f) := by
  rw [matmul_mm_apply d h1 h2 h3 h4 h5 h6]
  show Ideal.ofBits .f32 0x00000000#32 + _ = _
  rw [Ideal.ofBits_zero_f32, zero_add]

end MatmulForms

end
-- ==== Proof.DensePoints.lean ====
import Idealize.ShloMosaic.Lib.ValueIdx
import Idealize.ShloMosaic.Lib.Pipeline.Value
import Idealize.ShloMosaic.Lib.ValueLayout
import Idealize.ShloMosaic.PureOps.Ideal.Laws
import proofs.«142514_j84009560309789_1_alg».proof.KernelIdeal
import proofs.«142514_j84009560309789_1_alg».proof.ReferenceIdeal
import proofs.«142514_j84009560309789_1_alg».proof.Proof.Gen.KernelIdeal.Skeleton
import proofs.«142514_j84009560309789_1_alg».proof.Proof.LibHostForms
import proofs.«142514_j84009560309789_1_alg».proof.Proof.LibMatmulForms
import proofs.«142514_j84009560309789_1_alg».proof.Proof.Spec

/-
  The two matrix products and the bias-then-relu step of a two-layer graph convolution, each read at ONE entry, on both
  sides: a tile's kernel body (5000 rows) and the whole-array operation (50000 rows).

  * A product `x · W` at `(p, q)` is the sum over the inner coordinate `k` of `x (p, k) * W (k, q)`: the tile's product
    accumulates into the zero array and its narrowing of the operands is the identity on extended reals; the
    whole-array product is a `dot_general` with the plain product's dimension numbers.
  * Bias then relu at `(p, q)` is `max (a (p, q) + b (0, q)) 0`, the bias being a row `[1, 64]` repeated down the rows;
    the zero is kept as the extended real its word denotes, the same word on both sides.
  * The bias row has two spellings of one array: a vector `[B]` viewed as `[1, B]` by a shape cast, or broadcast along
    a new leading axis.
-/

noncomputable section

open scoped BigOperators

namespace Cert.Gcn.DensePoints

open Idealize.ShloMosaic Idealize.ShloMosaic.ValueIdx

/-! ## The first product -/

/-- The tile's first product at `(p, q)`: the inner sum over the 512 features. -/
theorem k0_pay1_apply [Cert.KernelIdeal.Facts] (x0 : Vec Ideal Cert.KernelIdeal.S5000x512 .f32)
    (x1 : Vec Ideal Cert.KernelIdeal.S512x64 .f32) (p : Fin 5000) (q : Fin 64) :
    Cert.KernelIdeal.Gen.k0_pay1 (F := Ideal) x0 x1 (ix2 p q) = ∑ k : Fin 512, x0 (ix2 p k) * x1 (ix2 k q) := by
  unfold Cert.KernelIdeal.Gen.k0_pay1
  exact MatmulForms.matmul_zero_mm_apply Cert.KernelIdeal.dot_S5000x512_S512x64_S5000x64_1_0_0_1_n_n
    rfl rfl rfl rfl rfl rfl none x0 x1 p q

/-- The whole-array first product at `(r, q)`: the same inner sum. -/
theorem dense1_apply [Cert.ReferenceIdeal.Facts] (x : FVec Ideal Cert.ReferenceIdeal.S50000x512 .f32)
    (w : FVec Ideal Cert.ReferenceIdeal.S512x64 .f32) (r : Fin 50000) (q : Fin 64) :
    Cert.Gcn.dense1 (F := Ideal) x w (ix2 r q) = ∑ k : Fin 512, x (ix2 r k) * w (ix2 k q) :=
  HostForms.dotGeneral_mm_apply Cert.ReferenceIdeal.dot_S50000x512_S512x64_S50000x64_1_0_0_1_n_n
    rfl rfl rfl rfl rfl rfl none x w r q

/-! ## The second product -/

/-- The tile's second product at `(p, q)`: the inner sum over the 64 hidden features (the leading cast of the left
    operand to its own shape is the identity). -/
theorem k2_pay1_apply [Cert.KernelIdeal.Facts] (x0 : Vec Ideal Cert.KernelIdeal.S5000x64 .f32)
    (x1 : Vec Ideal Cert.KernelIdeal.S64x16 .f32) (p : Fin 5000) (q : Fin 16) :
    Cert.KernelIdeal.Gen.k2_pay1 (F := Ideal) x0 x1 (ix2 p q) = ∑ k : Fin 64, x0 (ix2 p k) * x1 (ix2 k q) := by
  unfold Cert.KernelIdeal.Gen.k2_pay1
  simp only [shapeCast_self]
  exact MatmulForms.matmul_zero_mm_apply Cert.KernelIdeal.dot_S5000x64_S64x16_S5000x16_1_0_0_1_n_n
    rfl rfl rfl rfl rfl rfl none x0 x1 p q

/-- The whole-array second product at `(r, q)`: the same inner sum. -/
theorem dense2_apply [Cert.ReferenceIdeal.Facts] (a : FVec Ideal Cert.ReferenceIdeal.S50000x64 .f32)
    (w : FVec Ideal Cert.ReferenceIdeal.S64x16 .f32) (r : Fin 50000) (q : Fin 16) :
    Cert.Gcn.dense2 (F := Ideal) a w (ix2 r q) = ∑ k : Fin 64, a (ix2 r k) * w (ix2 k q) :=
  HostForms.dotGeneral_mm_apply Cert.ReferenceIdeal.dot_S50000x64_S64x16_S50000x16_1_0_0_1_n_n
    rfl rfl rfl rfl rfl rfl none a w r q

/-! ## Bias then relu -/

/-- A row `[1, B]` repeated down the `N` rows of a matrix (the trailing-axes broadcast) reads, at `(p, c)`, the row
    at `(0, c)`. -/
theorem broadcastTo_row_apply {α : Type} {N B : ℕ} (v : (⟨2, ![1, B]⟩ : Shape).Idx → α)
    (h : (⟨2, ![1, B]⟩ : Shape).Broadcasts ⟨2, ![N, B]⟩) (p : Fin N) (c : Fin B) :
    broadcastTo ⟨2, ![N, B]⟩ v h (ix2 p c) = v (ix2 (0 : Fin 1) c) := by
  refine broadcastTo_apply v h (ix2 p c) (ix2 (0 : Fin 1) c) fun ax => ?_
  match ax with
  | ⟨0, _⟩ => rfl
  | ⟨1, _⟩ =>
    show c.val = if B = 1 then 0 else c.val
    split_ifs with hB
    · have := c.isLt; omega
    · rfl

/-- The tile's bias-then-relu at `(p, q)` (the casts of the row and of the matrix to their own shapes are the
    identity; the scalar zero is the same everywhere). -/
theorem k1_pay1_apply [Cert.KernelIdeal.Facts] (b : Vec Ideal Cert.KernelIdeal.S1x64 .f32)
    (x : Vec Ideal Cert.KernelIdeal.S5000x64 .f32) (p : Fin 5000) (q : Fin 64) :
    Cert.KernelIdeal.Gen.k1_pay1 (F := Ideal) b x (ix2 p q)
      = max (x (ix2 p q) + b (ix2 (0 : Fin 1) q)) (Ideal.ofBits .f32 0x00000000#32) := by
  unfold Cert.KernelIdeal.Gen.k1_pay1
  simp only [shapeCast_self]
  show max (x (ix2 p q) + broadcastTo Cert.KernelIdeal.S5000x64 b _ (ix2 p q)) (Ideal.ofBits .f32 0x00000000#32) = _
  rw [broadcastTo_row_apply]

/-- The whole-array bias-then-relu at `(r, q)`. -/
theorem biasRelu_apply [Cert.ReferenceIdeal.Facts] (a : FVec Ideal Cert.ReferenceIdeal.S50000x64 .f32)
    (brow : FVec Ideal Cert.ReferenceIdeal.S1x64 .f32) (r : Fin 50000) (q : Fin 64) :
    Cert.Gcn.biasRelu (F := Ideal) a brow (ix2 r q)
      = max (a (ix2 r q) + brow (ix2 (0 : Fin 1) q)) (Ideal.ofBits .f32 0x00000000#32) := by
  unfold Cert.Gcn.biasRelu
  rw [HostForms.bcast_constant]
  show max (a (ix2 r q) + broadcastInDim Cert.ReferenceIdeal.S50000x64 ![0, 1] _ brow (ix2 r q)) _ = _
  rw [HostForms.bcast_rows_apply]

/-! ## The bias row, two spellings of one array -/

/-- A vector `[B]` viewed as the row `[1, B]` by a shape cast is the vector broadcast along a new leading axis. -/
theorem cast_row_eq_bcast_row {α : Type} {B : ℕ} (b : (⟨1, ![B]⟩ : Shape).Idx → α)
    (hc : (⟨1, ![B]⟩ : Shape).ShapeCasts ⟨2, ![1, B]⟩)
    (hb : (⟨1, ![B]⟩ : Shape).BroadcastsInDim ⟨2, ![1, B]⟩ ![1]) :
    shapeCast ⟨2, ![1, B]⟩ b hc = broadcastInDim ⟨2, ![1, B]⟩ ![1] hb b := by
  funext j
  obtain ⟨u, f, rfl⟩ : ∃ (u : Fin 1) (f : Fin B), j = ix2 u f := ⟨j 0, j 1, eq_ix2 j⟩
  rw [shapeCast_a_1a_apply, HostForms.bcast_row_apply]

/-- The first layer's bias row: the tile program's reshape of the 64-vector is the whole-array program's broadcast. -/
theorem bias_row_64 {F : FTy → Type} [Cert.KernelIdeal.Facts] [Cert.ReferenceIdeal.Facts]
    (b : FVec F Cert.KernelIdeal.S64 .f32) :
    shapeCast Cert.KernelIdeal.S1x64 b Cert.KernelIdeal.Facts₀.shapeCasts_S64_S1x64
      = broadcastInDim Cert.ReferenceIdeal.S1x64 ![1] Cert.ReferenceIdeal.Facts₀.bcast_S64_S1x64_1 b :=
  cast_row_eq_bcast_row b _ _

/-- The second layer's bias row: the same for the 16-vector. -/
theorem bias_row_16 {F : FTy → Type} [Cert.KernelIdeal.Facts] [Cert.ReferenceIdeal.Facts]
    (b : FVec F Cert.KernelIdeal.S16 .f32) :
    shapeCast Cert.KernelIdeal.S1x16 b Cert.KernelIdeal.Facts₀.shapeCasts_S16_S1x16
      = broadcastInDim Cert.ReferenceIdeal.S1x16 ![1] Cert.ReferenceIdeal.Facts₀.bcast_S16_S1x16_1 b :=
  cast_row_eq_bcast_row b _ _

/-- The first layer's bias row against the named row `biasRow64`. -/
theorem bias_row_64_eq_biasRow64 {F : FTy → Type} [Cert.KernelIdeal.Facts] [Cert.ReferenceIdeal.Facts]
    (b : FVec F Cert.KernelIdeal.S64 .f32) :
    shapeCast Cert.KernelIdeal.S1x64 b Cert.KernelIdeal.Facts₀.shapeCasts_S64_S1x64 = Cert.Gcn.biasRow64 b :=
  bias_row_64 b

/-- The second layer's bias row against the named row `biasRow16`. -/
theorem bias_row_16_eq_biasRow16 {F : FTy → Type} [Cert.KernelIdeal.Facts] [Cert.ReferenceIdeal.Facts]
    (b : FVec F Cert.KernelIdeal.S16 .f32) :
    shapeCast Cert.KernelIdeal.S1x16 b Cert.KernelIdeal.Facts₀.shapeCasts_S16_S1x16 = Cert.Gcn.biasRow16 b :=
  bias_row_16 b

end Cert.Gcn.DensePoints

end
-- ==== Proof.RegionDense1.lean ====
import proofs.«142514_j84009560309789_1_alg».proof.Proof.Gen.KernelIdeal.Frame
import proofs.«142514_j84009560309789_1_alg».proof.Proof.Gen.ReferenceIdeal
import proofs.«142514_j84009560309789_1_alg».proof.Proof.Spec
import proofs.«142514_j84009560309789_1_alg».proof.Proof.DensePoints
import Idealize.ShloMosaic.Lib.Pipeline.Value
/-
  The first product's tiled region: what its ten row blocks leave in the output array is the whole-array product of the
  two arrays the region finds at entry.

  Grid point `t` reads row block `t` (5000 rows) of the left operand and the whole right operand, and writes row block
  `t` of the output. Entry `(p, q)` of what it writes is the inner sum over `k` of `x (5000 t + p, k) * W (k, q)`, which is
  entry `(5000 t + p, q)` of the whole product. The ten blocks cover all 50000 rows, so the array ends holding the
  whole product.
-/

noncomputable section

open scoped BigOperators

namespace Cert.Gcn.RegionDense1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero corner, two spellings. -/
theorem corner_zero : (![0, 0] : Fin 2 → Nat) = fun _ => 0 := funext fun a => by fin_cases a <;> rfl

/-- The printed index maps over the ten grid points: the left operand's and the output's row block is `t`, every
    column block is `0`, and the right operand is one block. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left operand's block at point `t` is row `5000 t + p` of the array. -/
theorem lhs_block_apply (c : Dev nD) (t : Fin cfg0.N) (p : Fin 5000) (k : Fin 512) :
    iblk0 V c 0 t (ix2 p k)
      = V c main_arg0 (ix2 (⟨t.val * 5000 + p.val, by have := (show t.val < 10 from t.isLt); have := p.isLt; omega⟩ : Fin 50000) k) := by
  unfold iblk0
  show V c main_arg0 (((cfg0.win 0).blk t).view.emb (ix2 p k)) = _
  refine congrArg (V c main_arg0) (funext fun a => Fin.ext ?_)
  obtain ⟨e0, e1, e2, e3, e4, e5⟩ := index_facts t
  match a with
  | ⟨0, _⟩ => show win0_0.index t (0 : Fin 2) * 5000 + 1 * p.val = t.val * 5000 + p.val; omega
  | ⟨1, _⟩ => show win0_0.index t (1 : Fin 2) * 512 + 1 * k.val = k.val; omega

/-- The right operand's block at any point is the whole array. -/
theorem rhs_block_apply (c : Dev nD) (t : Fin cfg0.N) (k : Fin 512) (q : Fin 64) :
    iblk0 V c 1 t (ix2 k q) = V c main_arg2 (ix2 k q) := by
  unfold iblk0
  show V c main_arg2 (((cfg0.win 1).blk t).view.emb (ix2 k q)) = _
  refine congrArg (V c main_arg2) (funext fun a => Fin.ext ?_)
  obtain ⟨e0, e1, e2, e3, e4, e5⟩ := index_facts t
  match a with
  | ⟨0, _⟩ => show win0_1.index t (0 : Fin 2) * 512 + 1 * k.val = k.val; omega
  | ⟨1, _⟩ => show win0_1.index t (1 : Fin 2) * 64 + 1 * q.val = q.val; omega

/-- WHAT POINT `t` WRITES BACK is block `t` of the whole-array product of the entry arrays. -/
theorem flushed_eq (c : Dev nD) (t : Fin cfg0.N) :
    (dat0 (F := Ideal) V c).flushed 2 t
      = ((cfg0.win 2).blk t).view.read (Elt Ideal) (Cert.Gcn.dense1 (F := Ideal) (V c main_arg0) (V c main_arg2)) := by
  show (cfg0.win 2).cut (grid0.coords t) ((dat0 V c).after 2 t) = _
  rw [after0_2]
  unfold out0_2
  rw [View.canon_unit_zero corner_zero]
  simp only [View.ld_unit_zero (S := S5000x512) corner_zero, View.ld_unit_zero (S := S512x64) corner_zero]
  refine funext fun (j : S5000x64.Idx) => ?_
  obtain ⟨p, q, rfl⟩ : ∃ (p : Fin 5000) (q : Fin 64), j = ix2 p q := ⟨j 0, j 1, eq_ix2 j⟩
  show Cert.KernelIdeal.Gen.k0_pay1 (F := Ideal) (iblk0 V c 0 t) (iblk0 V c 1 t) (ix2 p q)
    = Cert.Gcn.dense1 (F := Ideal) (V c main_arg0) (V c main_arg2) (((cfg0.win 2).blk t).view.emb (ix2 p q))
  have hrow : t.val * 5000 + p.val < 50000 := by have := (show t.val < 10 from t.isLt); have := p.isLt; omega
  have hemb : ((cfg0.win 2).blk t).view.emb (ix2 p q) = ix2 (⟨t.val * 5000 + p.val, hrow⟩ : Fin 50000) q := by
    refine funext fun a => Fin.ext ?_
    obtain ⟨e0, e1, e2, e3, e4, e5⟩ := index_facts t
    match a with
    | ⟨0, _⟩ => show win0_2.index t (0 : Fin 2) * 5000 + 1 * p.val = t.val * 5000 + p.val; omega
    | ⟨1, _⟩ => show win0_2.index t (1 : Fin 2) * 64 + 1 * q.val = q.val; omega
  rw [hemb, DensePoints.k0_pay1_apply, DensePoints.dense1_apply]
  refine Finset.sum_congr rfl fun k _ => ?_
  rw [lhs_block_apply, rhs_block_apply]

/-- An index of the output array is in point `t`'s block iff each coordinate is in the block's range on its axis. -/
theorem mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- The ten row blocks cover the output array: row `r` lies in the block of point `r / 5000`. -/
theorem cover (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  refine ⟨(⟨(i 0).val / 5000, by show (i 0).val / 5000 < 10; omega⟩ : Fin cfg0.N), flush0_2 _, ?_⟩
  rw [mem_blk]
  obtain ⟨e0, e1, e2, e3, e4, e5⟩ := index_facts (⟨(i 0).val / 5000, by show (i 0).val / 5000 < 10; omega⟩ : Fin cfg0.N)
  intro a
  match a with
  | ⟨0, _⟩ =>
    show win0_2.index _ (0 : Fin 2) * 5000 ≤ (i 0).val ∧ (i 0).val < win0_2.index _ (0 : Fin 2) * 5000 + 5000
    rw [e4]
    show (i 0).val / 5000 * 5000 ≤ (i 0).val ∧ (i 0).val < (i 0).val / 5000 * 5000 + 5000
    omega
  | ⟨1, _⟩ =>
    show win0_2.index _ (1 : Fin 2) * 64 ≤ (i 1).val ∧ (i 1).val < win0_2.index _ (1 : Fin 2) * 64 + 64
    rw [e5]
    omega

/-- THE OUTPUT ARRAY after the region: the whole-array product of the arrays the region finds at entry. -/
theorem final (c : Dev nD) :
    (dat0 (F := Ideal) V c).arrAt 2 cfg0.N = Cert.Gcn.dense1 (F := Ideal) (V c main_arg0) (V c main_arg2) :=
  (dat0 V c).arrAt_eq_of_cover 2 (Cert.Gcn.dense1 (F := Ideal) (V c main_arg0) (V c main_arg2))
    (fun t _ => flushed_eq V c t) cover

end Cert.Gcn.RegionDense1

end
-- ==== Proof.RegionRelu.lean ====
import proofs.«142514_j84009560309789_1_alg».proof.Proof.Gen.KernelIdeal.Frame
import proofs.«142514_j84009560309789_1_alg».proof.Proof.Gen.ReferenceIdeal
import proofs.«142514_j84009560309789_1_alg».proof.Proof.Spec
import proofs.«142514_j84009560309789_1_alg».proof.Proof.DensePoints
import Idealize.ShloMosaic.Lib.Pipeline.Value
/-
  The bias-then-relu tiled region: what its ten row blocks leave in the output array is the whole-array bias-then-relu
  of the two arrays the region finds at entry (the aggregated features and the bias row).

  Grid point `t` reads row block `t` (5000 rows) of the features and the whole bias row `[1, 64]`, and writes row block `t`
  of the output. Entry `(p, q)` of what it writes is `max (a (5000 t + p, q) + b (0, q)) 0`, which is entry
  `(5000 t + p, q)` of the whole-array function. The ten blocks cover all 50000 rows, so the array ends holding it.
-/

noncomputable section

namespace Cert.Gcn.RegionRelu

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero corner, two spellings. -/
theorem corner_zero : (![0, 0] : Fin 2 → Nat) = fun _ => 0 := funext fun a => by fin_cases a <;> rfl

/-- The printed index maps over the ten grid points: the features' and the output's row block is `t`, every column
    block is `0`, and the bias row is one block. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `p` of the features' block at point `t` is row `5000 t + p` of the array. -/
theorem features_block_apply (c : Dev nD) (t : Fin cfg1.N) (p : Fin 5000) (q : Fin 64) :
    iblk1 V c 0 t (ix2 p q)
      = V c main_v42 (ix2 (⟨t.val * 5000 + p.val, by have := (show t.val < 10 from t.isLt); have := p.isLt; omega⟩ : Fin 50000) q) := by
  unfold iblk1
  show V c main_v42 (((cfg1.win 0).blk t).view.emb (ix2 p q)) = _
  refine congrArg (V c main_v42) (funext fun a => Fin.ext ?_)
  obtain ⟨e0, e1, e2, e3, e4, e5⟩ := index_facts t
  match a with
  | ⟨0, _⟩ => show win1_0.index t (0 : Fin 2) * 5000 + 1 * p.val = t.val * 5000 + p.val; omega
  | ⟨1, _⟩ => show win1_0.index t (1 : Fin 2) * 64 + 1 * q.val = q.val; omega

/-- The bias row's block at any point is the whole row. -/
theorem bias_block_apply (c : Dev nD) (t : Fin cfg1.N) (u : Fin 1) (q : Fin 64) :
    iblk1 V c 1 t (ix2 u q) = V c main_v43 (ix2 u q) := by
  unfold iblk1
  show V c main_v43 (((cfg1.win 1).blk t).view.emb (ix2 u q)) = _
  refine congrArg (V c main_v43) (funext fun a => Fin.ext ?_)
  obtain ⟨e0, e1, e2, e3, e4, e5⟩ := index_facts t
  match a with
  | ⟨0, _⟩ => show win1_1.index t (0 : Fin 2) * 1 + 1 * u.val = u.val; omega
  | ⟨1, _⟩ => show win1_1.index t (1 : Fin 2) * 64 + 1 * q.val = q.val; omega

/-- WHAT POINT `t` WRITES BACK is block `t` of the whole-array bias-then-relu of the entry arrays. -/
theorem flushed_eq (c : Dev nD) (t : Fin cfg1.N) :
    (dat1 (F := Ideal) V c).flushed 2 t
      = ((cfg1.win 2).blk t).view.read (Elt Ideal) (Cert.Gcn.biasRelu (F := Ideal) (V c main_v42) (V c main_v43)) := by
  show (cfg1.win 2).cut (grid1.coords t) ((dat1 V c).after 2 t) = _
  rw [after1_2]
  unfold out1_2
  rw [View.canon_unit_zero corner_zero]
  simp only [View.ld_unit_zero (S := S1x64) corner_zero, View.ld_unit_zero (S := S5000x64) corner_zero]
  refine funext fun (j : S5000x64.Idx) => ?_
  obtain ⟨p, q, rfl⟩ : ∃ (p : Fin 5000) (q : Fin 64), j = ix2 p q := ⟨j 0, j 1, eq_ix2 j⟩
  show Cert.KernelIdeal.Gen.k1_pay1 (F := Ideal) (iblk1 V c 1 t) (iblk1 V c 0 t) (ix2 p q)
    = Cert.Gcn.biasRelu (F := Ideal) (V c main_v42) (V c main_v43) (((cfg1.win 2).blk t).view.emb (ix2 p q))
  have hrow : t.val * 5000 + p.val < 50000 := by have := (show t.val < 10 from t.isLt); have := p.isLt; omega
  have hemb : ((cfg1.win 2).blk t).view.emb (ix2 p q) = ix2 (⟨t.val * 5000 + p.val, hrow⟩ : Fin 50000) q := by
    refine funext fun a => Fin.ext ?_
    obtain ⟨e0, e1, e2, e3, e4, e5⟩ := index_facts t
    match a with
    | ⟨0, _⟩ => show win1_2.index t (0 : Fin 2) * 5000 + 1 * p.val = t.val * 5000 + p.val; omega
    | ⟨1, _⟩ => show win1_2.index t (1 : Fin 2) * 64 + 1 * q.val = q.val; omega
  rw [hemb, DensePoints.k1_pay1_apply, DensePoints.biasRelu_apply, features_block_apply, bias_block_apply]

/-- An index of the output array is in point `t`'s block iff each coordinate is in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v44).slice (win1_2.rect t)).set ↔ _
  rw [View.set_slice_whole, Rect.mem_set_unit]
  exact Iff.rfl

/-- The ten row blocks cover the output array: row `r` lies in the block of point `r / 5000`. -/
theorem cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  refine ⟨(⟨(i 0).val / 5000, by show (i 0).val / 5000 < 10; omega⟩ : Fin cfg1.N), flush1_2 _, ?_⟩
  rw [mem_blk]
  obtain ⟨e0, e1, e2, e3, e4, e5⟩ := index_facts (⟨(i 0).val / 5000, by show (i 0).val / 5000 < 10; omega⟩ : Fin cfg1.N)
  intro a
  match a with
  | ⟨0, _⟩ =>
    show win1_2.index _ (0 : Fin 2) * 5000 ≤ (i 0).val ∧ (i 0).val < win1_2.index _ (0 : Fin 2) * 5000 + 5000
    rw [e4]
    show (i 0).val / 5000 * 5000 ≤ (i 0).val ∧ (i 0).val < (i 0).val / 5000 * 5000 + 5000
    omega
  | ⟨1, _⟩ =>
    show win1_2.index _ (1 : Fin 2) * 64 ≤ (i 1).val ∧ (i 1).val < win1_2.index _ (1 : Fin 2) * 64 + 64
    rw [e5]
    omega

/-- THE OUTPUT ARRAY after the region: the whole-array bias-then-relu of the arrays the region finds at entry. -/
theorem final (c : Dev nD) :
    (dat1 (F := Ideal) V c).arrAt 2 cfg1.N = Cert.Gcn.biasRelu (F := Ideal) (V c main_v42) (V c main_v43) :=
  (dat1 V c).arrAt_eq_of_cover 2 (Cert.Gcn.biasRelu (F := Ideal) (V c main_v42) (V c main_v43))
    (fun t _ => flushed_eq V c t) cover

end Cert.Gcn.RegionRelu

end
-- ==== Proof.RegionDense2.lean ====
import proofs.«142514_j84009560309789_1_alg».proof.Proof.Gen.KernelIdeal.Frame
import proofs.«142514_j84009560309789_1_alg».proof.Proof.Gen.ReferenceIdeal
import proofs.«142514_j84009560309789_1_alg».proof.Proof.Spec
import proofs.«142514_j84009560309789_1_alg».proof.Proof.DensePoints
import Idealize.ShloMosaic.Lib.Pipeline.Value
/-
  The second product's tiled region: what its ten row blocks leave in the output array is the whole-array product of the
  two arrays the region finds at entry.

  Grid point `t` reads row block `t` (5000 rows) of the left operand and the whole right operand, and writes row block
  `t` of the output. Entry `(p, q)` of what it writes is the inner sum over `k` of `x (5000 t + p, k) * W (k, q)`, which is
  entry `(5000 t + p, q)` of the whole product. The ten blocks cover all 50000 rows, so the array ends holding the
  whole product.
-/

noncomputable section

open scoped BigOperators

namespace Cert.Gcn.RegionDense2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero corner, two spellings. -/
theorem corner_zero : (![0, 0] : Fin 2 → Nat) = fun _ => 0 := funext fun a => by fin_cases a <;> rfl

/-- The printed index maps over the ten grid points: the left operand's and the output's row block is `t`, every
    column block is `0`, and the right operand is one block. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the left operand's block at point `t` is row `5000 t + p` of the array. -/
theorem lhs_block_apply (c : Dev nD) (t : Fin cfg2.N) (p : Fin 5000) (k : Fin 64) :
    iblk2 V c 0 t (ix2 p k)
      = V c main_v44 (ix2 (⟨t.val * 5000 + p.val, by have := (show t.val < 10 from t.isLt); have := p.isLt; omega⟩ : Fin 50000) k) := by
  unfold iblk2
  show V c main_v44 (((cfg2.win 0).blk t).view.emb (ix2 p k)) = _
  refine congrArg (V c main_v44) (funext fun a => Fin.ext ?_)
  obtain ⟨e0, e1, e2, e3, e4, e5⟩ := index_facts t
  match a with
  | ⟨0, _⟩ => show win2_0.index t (0 : Fin 2) * 5000 + 1 * p.val = t.val * 5000 + p.val; omega
  | ⟨1, _⟩ => show win2_0.index t (1 : Fin 2) * 64 + 1 * k.val = k.val; omega

/-- The right operand's block at any point is the whole array. -/
theorem rhs_block_apply (c : Dev nD) (t : Fin cfg2.N) (k : Fin 64) (q : Fin 16) :
    iblk2 V c 1 t (ix2 k q) = V c main_arg4 (ix2 k q) := by
  unfold iblk2
  show V c main_arg4 (((cfg2.win 1).blk t).view.emb (ix2 k q)) = _
  refine congrArg (V c main_arg4) (funext fun a => Fin.ext ?_)
  obtain ⟨e0, e1, e2, e3, e4, e5⟩ := index_facts t
  match a with
  | ⟨0, _⟩ => show win2_1.index t (0 : Fin 2) * 64 + 1 * k.val = k.val; omega
  | ⟨1, _⟩ => show win2_1.index t (1 : Fin 2) * 16 + 1 * q.val = q.val; omega

/-- WHAT POINT `t` WRITES BACK is block `t` of the whole-array product of the entry arrays. -/
theorem flushed_eq (c : Dev nD) (t : Fin cfg2.N) :
    (dat2 (F := Ideal) V c).flushed 2 t
      = ((cfg2.win 2).blk t).view.read (Elt Ideal) (Cert.Gcn.dense2 (F := Ideal) (V c main_v44) (V c main_arg4)) := by
  show (cfg2.win 2).cut (grid2.coords t) ((dat2 V c).after 2 t) = _
  rw [after2_2]
  unfold out2_2
  rw [View.canon_unit_zero corner_zero]
  simp only [View.ld_unit_zero (S := S5000x64) corner_zero, View.ld_unit_zero (S := S64x16) corner_zero]
  refine funext fun (j : S5000x16.Idx) => ?_
  obtain ⟨p, q, rfl⟩ : ∃ (p : Fin 5000) (q : Fin 16), j = ix2 p q := ⟨j 0, j 1, eq_ix2 j⟩
  show Cert.KernelIdeal.Gen.k2_pay1 (F := Ideal) (iblk2 V c 0 t) (iblk2 V c 1 t) (ix2 p q)
    = Cert.Gcn.dense2 (F := Ideal) (V c main_v44) (V c main_arg4) (((cfg2.win 2).blk t).view.emb (ix2 p q))
  have hrow : t.val * 5000 + p.val < 50000 := by have := (show t.val < 10 from t.isLt); have := p.isLt; omega
  have hemb : ((cfg2.win 2).blk t).view.emb (ix2 p q) = ix2 (⟨t.val * 5000 + p.val, hrow⟩ : Fin 50000) q := by
    refine funext fun a => Fin.ext ?_
    obtain ⟨e0, e1, e2, e3, e4, e5⟩ := index_facts t
    match a with
    | ⟨0, _⟩ => show win2_2.index t (0 : Fin 2) * 5000 + 1 * p.val = t.val * 5000 + p.val; omega
    | ⟨1, _⟩ => show win2_2.index t (1 : Fin 2) * 16 + 1 * q.val = q.val; omega
  rw [hemb, DensePoints.k2_pay1_apply, DensePoints.dense2_apply]
  refine Finset.sum_congr rfl fun k _ => ?_
  rw [lhs_block_apply, rhs_block_apply]

/-- An index of the output array is in point `t`'s block iff each coordinate is in the block's range on its axis. -/
theorem mem_blk (t : Fin cfg2.N) (i : S50000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v45).slice (win2_2.rect t)).set ↔ _
  rw [View.set_slice_whole, Rect.mem_set_unit]
  exact Iff.rfl

/-- The ten row blocks cover the output array: row `r` lies in the block of point `r / 5000`. -/
theorem cover (i : S50000x16.Idx) :
    ∃ t : Fin cfg2.N, (cfg2.win 2).flush t = true ∧ i ∈ ((cfg2.win 2).blk t).view.set := by
  have hi0 : (i 0).val < 50000 := (i 0).isLt
  have hi1 : (i 1).val < 16 := (i 1).isLt
  refine ⟨(⟨(i 0).val / 5000, by show (i 0).val / 5000 < 10; omega⟩ : Fin cfg2.N), flush2_2 _, ?_⟩
  rw [mem_blk]
  obtain ⟨e0, e1, e2, e3, e4, e5⟩ := index_facts (⟨(i 0).val / 5000, by show (i 0).val / 5000 < 10; omega⟩ : Fin cfg2.N)
  intro a
  match a with
  | ⟨0, _⟩ =>
    show win2_2.index _ (0 : Fin 2) * 5000 ≤ (i 0).val ∧ (i 0).val < win2_2.index _ (0 : Fin 2) * 5000 + 5000
    rw [e4]
    show (i 0).val / 5000 * 5000 ≤ (i 0).val ∧ (i 0).val < (i 0).val / 5000 * 5000 + 5000
    omega
  | ⟨1, _⟩ =>
    show win2_2.index _ (1 : Fin 2) * 16 ≤ (i 1).val ∧ (i 1).val < win2_2.index _ (1 : Fin 2) * 16 + 16
    rw [e5]
    omega

/-- THE OUTPUT ARRAY after the region: the whole-array product of the arrays the region finds at entry. -/
theorem final (c : Dev nD) :
    (dat2 (F := Ideal) V c).arrAt 2 cfg2.N = Cert.Gcn.dense2 (F := Ideal) (V c main_v44) (V c main_arg4) :=
  (dat2 V c).arrAt_eq_of_cover 2 (Cert.Gcn.dense2 (F := Ideal) (V c main_v44) (V c main_arg4))
    (fun t _ => flushed_eq V c t) cover

end Cert.Gcn.RegionDense2

end
-- ==== Proof.SoftmaxRows.lean ====
/-
  The log-softmax of one row of sixteen entries, and the two programs' spellings of it read at an index.

  For a row `z : Fin 16 → EReal` let `M` be the maximum of its entries (the fold of `max` from −∞) and
  `rowLsm z j = (z j − M) − log (∑ k, exp (z k − M))`, every operation the extended reals' own.

  The kernel's fourth region computes, on a `[5000, 16]` block `x` and a `[1, 16]` bias row `b`, the block plus the bias
  row broadcast down the rows, that array's row maxima (a reduction along the columns from −∞), the array minus its row
  maxima, the row sums of the exponentials (a reduction along the columns from 0), and the shifted array minus the
  logarithms of the row sums. At `(p, j)` this is `rowLsm` of row `p` of `x + b` at `j` (`k3_pay1_apply`).

  The reference computes the same on the whole `[50000, 16]` array, with three differences of spelling, none of value:
  it takes the maximum of the row maxima with −∞ once more (the row maximum is already at least −∞); its row sum starts
  from an explicit zero (`0 + s = s`); and its column vectors are broadcast along axis 0 and then along the columns
  where the kernel casts `[5000]` to `[5000, 1]` and broadcasts. At `(r, j)` it is `rowLsm` of row `r` at `j`
  (`lsmRef_apply`).
-/
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Idealize.ShloMosaic.PureOps.Reduce
import proofs.«142514_j84009560309789_1_alg».proof.KernelIdeal
import proofs.«142514_j84009560309789_1_alg».proof.ReferenceIdeal
import proofs.«142514_j84009560309789_1_alg».proof.Proof.Gen.KernelIdeal.Skeleton
import proofs.«142514_j84009560309789_1_alg».proof.Proof.Spec

noncomputable section

namespace Cert.Gcn.SoftmaxRows

open Idealize.ShloMosaic Idealize.ShloMosaic.ValueIdx

/-! ## Layout operations of the row shapes, read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast along axis 0 to `[a, 1]` reads, at `(i, u)`, the operand at `i`. -/
theorem broadcastInDim_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` array broadcast along axes (0, 1) to `[a, b]` reads, at `(p, c)`, the operand's one column at `p`. -/
theorem broadcastInDim_a1_ab_apply {a b : ℕ} (h : (⟨2, ![a, 1]⟩ : Shape).BroadcastsInDim ⟨2, ![a, b]⟩ ![0, 1])
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- Over row `p` of an `[a, b]` array reduced along its columns, the index with column `k` inserted is `(p, k)`. -/
theorem lift_ix1 {a b : ℕ} (h : Shape.Reduces ⟨2, ![a, b]⟩ [1] ⟨1, ![a]⟩) (p : Fin a) (k : Fin b) :
    h.lift (ix1 p) k = ix2 p k := by
  funext c
  match c with
  | ⟨0, _⟩ => rfl
  | ⟨1, _⟩ => rfl

end Layout

/-! ## The log-softmax of one row -/

/-- The maximum of a row's sixteen entries: the fold of `max` over them from the value of the word both programs
    start their row maximum from (the f32 pattern of −∞). -/
def rowMax (z : Fin 16 → EReal) : EReal :=
  (Finset.univ : Finset (Fin 16)).fold max (Ideal.ofBits .f32 0xFF800000#32) z

/-- The log-softmax of a row of sixteen entries at column `j`: with `M` the row's maximum,
    `(z j − M) − log (∑ k, exp (z k − M))`, every operation the extended reals' own. -/
def rowLsm (z : Fin 16 → EReal) (j : Fin 16) : EReal :=
  (z j - rowMax z) - Ideal.log (∑ k : Fin 16, Ideal.exp (z k - rowMax z))

/-- The row maximum is at least the value it is folded from, so taking the maximum with that value again changes
    nothing. -/
theorem max_init_rowMax (z : Fin 16 → EReal) : max (Ideal.ofBits .f32 0xFF800000#32) (rowMax z) = rowMax z := by
  apply max_eq_right
  unfold rowMax
  rw [Finset.le_fold_max]
  exact Or.inl le_rfl

/-! ## The kernel's side -/

section Kernel
open Cert.KernelIdeal

/-- The kernel's row maximum: a reduction by `max` along the columns of a `[5000, 16]` block from −∞ is, at row `p`, the
    maximum of that row's sixteen entries. -/
theorem kernel_rowMax (v : FVec Ideal S5000x16 .f32) (h : S5000x16.Reduces [1] S5000) (hφ : FKind.Formats .f32)
    (hacc : (0xFF800000#32 : BitVec 32) = FKind.maximumf.neutral .f32 hφ) (p : Fin 5000) :
    multiReduction .maximumf [1] S5000 v 0xFF800000#32 h hφ hacc (ix1 p) = rowMax fun k => v (ix2 p k) :=
  (Ideal.multiReduction_maximumf_single v _ h hφ hacc (ix1 p)).trans
    (congrArg (fun f => Finset.fold max (Ideal.ofBits .f32 0xFF800000#32) f (Finset.univ : Finset (Fin 16)))
      (funext fun k => congrArg v (lift_ix1 h p k)))

/-- The kernel's row sum: a reduction by addition along the columns of a `[5000, 16]` block is, at row `p`, the sum of
    that row's sixteen entries. -/
theorem kernel_rowSum (v : FVec Ideal S5000x16 .f32) (h : S5000x16.Reduces [1] S5000) (hφ : FKind.Formats .f32)
    (hacc : (0x00000000#32 : BitVec 32) = FKind.add.neutral .f32 hφ) (p : Fin 5000) :
    multiReduction .add [1] S5000 v 0x00000000#32 h hφ hacc (ix1 p) = ∑ k : Fin 16, v (ix2 p k) :=
  (Ideal.multiReduction_add_single v _ h hφ hacc (ix1 p)).trans
    (Finset.sum_congr rfl fun k _ => congrArg v (lift_ix1 h p k))

/-- The kernel's shifted row: a block minus its row maxima, cast to a column and broadcast back along the rows, is at
    `(p, k)` the entry minus row `p`'s maximum. -/
theorem kernel_shifted_apply (z : FVec Ideal S5000x16 .f32) (h : S5000x16.Reduces [1] S5000) (hφ : FKind.Formats .f32)
    (hacc : (0xFF800000#32 : BitVec 32) = FKind.maximumf.neutral .f32 hφ) (hc : S5000.ShapeCasts S5000x1)
    (hb : S5000x1.Broadcasts S5000x16) (p : Fin 5000) (k : Fin 16) :
    subf z (broadcastTo S5000x16 (shapeCast S5000x1 (multiReduction .maximumf [1] S5000 z 0xFF800000#32 h hφ hacc) hc) hb) (ix2 p k)
      = z (ix2 p k) - rowMax fun k => z (ix2 p k) := by
  rw [subf_apply, broadcastTo_a1_ab_apply, shapeCast_a_a1_apply, kernel_rowMax]

/-- The kernel's log-softmax of a block `z`: the block shifted by its row maxima, minus the logarithms of the row sums
    of the shifted block's exponentials, is at `(p, j)` the log-softmax of row `p` at column `j`. -/
theorem kernel_lsm_apply (z : FVec Ideal S5000x16 .f32) (h : S5000x16.Reduces [1] S5000) (hφ : FKind.Formats .f32)
    (hmax : (0xFF800000#32 : BitVec 32) = FKind.maximumf.neutral .f32 hφ)
    (hadd : (0x00000000#32 : BitVec 32) = FKind.add.neutral .f32 hφ) (hc : S5000.ShapeCasts S5000x1)
    (hb : S5000x1.Broadcasts S5000x16) (p : Fin 5000) (j : Fin 16) :
    subf
        (subf z (broadcastTo S5000x16 (shapeCast S5000x1 (multiReduction .maximumf [1] S5000 z 0xFF800000#32 h hφ hmax) hc) hb))
        (broadcastTo S5000x16
          (log (shapeCast S5000x1
            (multiReduction .add [1] S5000
              (exp (subf z (broadcastTo S5000x16 (shapeCast S5000x1 (multiReduction .maximumf [1] S5000 z 0xFF800000#32 h hφ hmax) hc) hb)))
              0x00000000#32 h hφ hadd) hc)) hb)
        (ix2 p j)
      = rowLsm (fun k => z (ix2 p k)) j := by
  rw [subf_apply, kernel_shifted_apply, broadcastTo_a1_ab_apply]
  show _ - Ideal.log (shapeCast S5000x1 _ hc (ix2 p (0 : Fin 1))) = _
  rw [shapeCast_a_a1_apply, kernel_rowSum]
  unfold rowLsm
  refine congrArg (fun s => _ - Ideal.log s) (Finset.sum_congr rfl fun k _ => ?_)
  show Ideal.exp (subf z _ (ix2 p k)) = _
  rw [kernel_shifted_apply]

variable [Cert.KernelIdeal.Facts]

/-- The fourth region's payload at `(p, j)`: the log-softmax at column `j` of row `p` of the loaded block plus the bias
    row (the two casts of the bias row and the cast of the block are to their own shapes, so the identity). -/
theorem k3_pay1_apply (b : Vec Ideal S1x16 .f32) (x : Vec Ideal S5000x16 .f32) (p : Fin 5000) (j : Fin 16) :
    Gen.k3_pay1 (F := Ideal) b x (ix2 p j) = rowLsm (fun k => x (ix2 p k) + b (ix2 (0 : Fin 1) k)) j := by
  unfold Gen.k3_pay1
  dsimp only
  simp only [shapeCast_self]
  refine (kernel_lsm_apply _ _ _ _ _ _ _ p j).trans (congrArg (fun f => rowLsm f j) (funext fun k => ?_))
  rw [addf_apply, broadcastTo_1b_ab_apply]

end Kernel

/-! ## The reference's side -/

section Host
open Cert.ReferenceIdeal

/-- The reference's row maximum: its reduction by `max` along the columns of the `[50000, 16]` array from the scalar −∞
    is, at row `r`, the maximum of that row's sixteen entries. -/
theorem host_rowMax (z : FVec Ideal S50000x16 .f32) (h' : S50000x16.ReducesTo [1] S50000) (hu : 0 < S_.numel) (r : Fin 50000) :
    Host.reduce FloatOps.maximumf z (constant (F := Ideal) S_ .f32 0xFF800000#32) h' hu (ix1 r) = rowMax fun k => z (ix2 r k) := by
  have h : S50000x16.Reduces [1] S50000 := by decide
  exact (Host.reduce_eq_fold_single FloatOps.maximumf z _ h' h hu (ix1 r)).trans
    (congrArg (fun f => Finset.fold max (Ideal.ofBits .f32 0xFF800000#32) f (Finset.univ : Finset (Fin 16)))
      (funext fun k => congrArg z (lift_ix1 h r k)))

/-- The reference's row sum: its reduction by addition along the columns from the scalar zero is, at row `r`, the sum
    of that row's sixteen entries (`0 + s = s`). -/
theorem host_rowSum (v : FVec Ideal S50000x16 .f32) (h' : S50000x16.ReducesTo [1] S50000) (hu : 0 < S_.numel) (r : Fin 50000) :
    Host.reduceAdd v (constant (F := Ideal) S_ .f32 0x00000000#32) h' hu (ix1 r) = ∑ k : Fin 16, v (ix2 r k) := by
  have h : S50000x16.Reduces [1] S50000 := by decide
  rw [hostReduceAdd_apply, Ideal.hostReduceAdd_single h' h]
  show Ideal.ofBits .f32 0x00000000#32 + _ = _
  rw [Ideal.ofBits_zero_f32, zero_add]
  exact Finset.sum_congr rfl fun k _ => congrArg v (lift_ix1 h r k)

/-- The reference's guarded row maximum: the maximum of the scalar −∞ broadcast to every row with the row maxima is, at
    row `r`, that row's maximum again (it is already at least −∞). -/
theorem host_guardedMax_apply (z : FVec Ideal S50000x16 .f32) (h' : S50000x16.ReducesTo [1] S50000) (hu : 0 < S_.numel)
    (hs : S_.BroadcastsInDim S50000 ![]) (r : Fin 50000) :
    maximumf (broadcastInDim S50000 ![] hs (constant (F := Ideal) S_ .f32 0xFF800000#32))
        (Host.reduce FloatOps.maximumf z (constant (F := Ideal) S_ .f32 0xFF800000#32) h' hu) (ix1 r)
      = rowMax fun k => z (ix2 r k) := by
  rw [maximumf_apply, broadcastInDim_scalar_apply, host_rowMax]
  exact max_init_rowMax _

/-- A column vector subtracted from every column: an array minus an `[n]` vector broadcast along axis 0 to `[n, 1]` and
    then along the columns is, at `(r, k)`, the entry minus the vector's entry `r`. -/
theorem host_subColumn_apply (z : FVec Ideal S50000x16 .f32) (m : FVec Ideal S50000 .f32)
    (h1 : S50000.BroadcastsInDim S50000x1 ![0]) (h2 : S50000x1.BroadcastsInDim S50000x16 ![0, 1]) (r : Fin 50000) (k : Fin 16) :
    subf z (broadcastInDim S50000x16 ![0, 1] h2 (broadcastInDim S50000x1 ![0] h1 m)) (ix2 r k) = z (ix2 r k) - m (ix1 r) := by
  rw [subf_apply, broadcastInDim_a1_ab_apply, broadcastInDim_a_a1_apply]

/-- The reference's exponential of an array, read at an index: the extended reals' exponential of the entry. -/
theorem hostExp_apply {s : Shape} (v : FVec Ideal s .f32) (i : s.Idx) : Host.exp v i = Ideal.exp (v i) := rfl

/-- The reference's logarithm of an array, read at an index: the extended reals' logarithm of the entry. -/
theorem hostLog_apply {s : Shape} (v : FVec Ideal s .f32) (i : s.Idx) : Host.log v i = Ideal.log (v i) := rfl

variable [Cert.ReferenceIdeal.Facts]

/-- The reference's log-softmax of the whole array at `(r, j)`: the log-softmax of row `r` at column `j`. -/
theorem lsmRef_apply (z : FVec Ideal S50000x16 .f32) (r : Fin 50000) (j : Fin 16) :
    lsmRef (F := Ideal) z (ix2 r j) = rowLsm (fun k => z (ix2 r k)) j := by
  unfold lsmRef
  dsimp only
  rw [subf_apply, host_subColumn_apply, broadcastInDim_a1_ab_apply, hostLog_apply, broadcastInDim_a_a1_apply,
    host_rowSum, host_guardedMax_apply]
  unfold rowLsm
  refine congrArg (fun s => _ - Ideal.log s) (Finset.sum_congr rfl fun k _ => ?_)
  rw [hostExp_apply, host_subColumn_apply, host_guardedMax_apply]

end Host

end Cert.Gcn.SoftmaxRows
-- ==== Proof.RegionSoftmax.lean ====
/-
  What the last region leaves in its output array.

  The region runs over a grid of ten points. At point `t` it is handed row block `t` (5000 rows) of the aggregate
  `[50000, 16]` and the whole bias row `[1, 16]`, and it writes row block `t` of the output `[50000, 16]`: its one store
  is the payload of the loaded blocks, which at `(p, q)` is the log-softmax, at column `q`, of row `p` of the block plus
  the bias row (`SoftmaxRows.k3_pay1_apply`). Entry `(p, q)` of row block `t` is entry `(5000 t + p, q)` of the array, on the
  input's side and on the output's, and the specification's log-softmax of the whole array at that entry is the
  log-softmax of that row (`SoftmaxRows.lsmRef_apply`); the bias row added to the whole array adds, in row `5000 t + p`,
  the same sixteen numbers. So point `t` writes back row block `t` of the specification's output (`flushed_eq`); the ten
  row blocks tile the array (`cover`); hence the array ends holding the specification's output (`final`). Everything is
  stated at the contents `V` the region finds at entry, whatever they are.
-/
import proofs.«142514_j84009560309789_1_alg».proof.Proof.Gen.KernelIdeal.Frame
import proofs.«142514_j84009560309789_1_alg».proof.Proof.Gen.ReferenceIdeal
import proofs.«142514_j84009560309789_1_alg».proof.Proof.Spec
import proofs.«142514_j84009560309789_1_alg».proof.Proof.SoftmaxRows
import proofs.«142514_j84009560309789_1_alg».proof.Proof.LibHostForms
import Idealize.ShloMosaic.Lib.Pipeline.Value
import Idealize.ShloMosaic.Lib.ValueIdx

noncomputable section

namespace Cert.Gcn.RegionSoftmax

open Cert.KernelIdeal Cert.KernelIdeal.Gen Idealize.ShloMosaic Idealize.ShloMosaic.TcCoe Idealize.SL.Sem
open Idealize.ShloMosaic.Pipeline (Dat)
open Idealize.ShloMosaic.ValueIdx
open Cert.Gcn.SoftmaxRows

/-- The zero offsets of a whole-block access, however they are spelt. -/
theorem hz : (![0, 0] : Fin 2 → Nat) = fun _ => 0 := funext fun a => by fin_cases a <;> rfl

/-- The three windows' block indices at every grid point, decided over the grid: the aggregate's and the output's
    window are at row block `t`, column block 0; the bias row's window stays at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of row block `t` is a row of the whole array: there are ten blocks of 5000 rows. -/
theorem row_lt (t : Fin cfg3.N) (p : Fin 5000) : t.val * 5000 + p.val < 50000 := by
  have ht : t.val < cfg3.N := t.isLt
  have hN : cfg3.N = 10 := N_3
  have hp := p.isLt
  omega

/-- Row `p` of row block `t`, as a row of the whole array: `5000 t + p`. -/
def rowOf (t : Fin cfg3.N) (p : Fin 5000) : Fin 50000 := ⟨t.val * 5000 + p.val, row_lt t p⟩

/-- The three windows' arrays: the aggregate, the bias row, the output. -/
theorem arrRef_agg : Pipeline.arrRef spec3 0 = main_v58 := rfl
theorem arrRef_bias : Pipeline.arrRef spec3 1 = main_v59 := rfl
theorem arrRef_out : Pipeline.arrRef spec3 2 = main_v60 := rfl

/-- Where the output window's block sits: entry `(p, q)` of row block `t` is entry `(5000 t + p, q)` of the array. -/
theorem emb_out (t : Fin cfg3.N) (p : Fin 5000) (q : Fin 16) :
    ((cfg3.win 2).blk t).view.emb (ix2 p q) = (ix2 (rowOf t p) q : S50000x16.Idx) := by
  obtain ⟨-, -, -, -, e0, e1⟩ := idx_facts t
  funext a; apply Fin.ext
  match a with
  | ⟨0, _⟩ => show win3_2.index t (0 : Fin 2) * 5000 + 1 * p.val = t.val * 5000 + p.val; rw [e0]; omega
  | ⟨1, _⟩ => show win3_2.index t (1 : Fin 2) * 16 + 1 * q.val = q.val; rw [e1]; omega

section Region
variable (V : (c : Dev nD) → (b : Ref sig .tc) → Buf (Elt Ideal) ((c : Thread nD τ).loc b))

/-- The aggregate's row block `t`, as the region finds it: entry `(p, k)` is the array's entry `(5000 t + p, k)`. -/
theorem iblk_agg_apply (c : Dev nD) (t : Fin cfg3.N) (p : Fin 5000) (k : Fin 16) :
    (iblk3 V c 0 t : Vec Ideal S5000x16 .f32) (ix2 p k) = (V c main_v58 : S50000x16.Idx → Elt Ideal .f32) (ix2 (rowOf t p) k) := by
  obtain ⟨e0, e1, -, -, -, -⟩ := idx_facts t
  unfold iblk3
  rw [View.read_apply]
  show V c main_v58 _ = V c main_v58 _
  congr 1
  funext a; apply Fin.ext
  match a with
  | ⟨0, _⟩ => show win3_0.index t (0 : Fin 2) * 5000 + 1 * p.val = t.val * 5000 + p.val; rw [e0]; omega
  | ⟨1, _⟩ => show win3_0.index t (1 : Fin 2) * 16 + 1 * k.val = k.val; rw [e1]; omega

/-- The bias row's block at every grid point is the whole `[1, 16]` row: entry `(0, k)` is the array's entry `(0, k)`. -/
theorem iblk_bias_apply (c : Dev nD) (t : Fin cfg3.N) (k : Fin 16) :
    (iblk3 V c 1 t : Vec Ideal S1x16 .f32) (ix2 (0 : Fin 1) k) = (V c main_v59 : S1x16.Idx → Elt Ideal .f32) (ix2 (0 : Fin 1) k) := by
  obtain ⟨-, -, e0, e1, -, -⟩ := idx_facts t
  unfold iblk3
  rw [View.read_apply]
  show V c main_v59 _ = V c main_v59 _
  congr 1
  funext a; apply Fin.ext
  match a with
  | ⟨0, _⟩ => show win3_1.index t (0 : Fin 2) * 1 + 1 * 0 = 0; rw [e0]
  | ⟨1, _⟩ => show win3_1.index t (1 : Fin 2) * 16 + 1 * k.val = k.val; rw [e1]; omega

/-- The bias row added to every row of the array, read at `(r, k)`. -/
theorem addBias16_apply (a : FVec Ideal Cert.ReferenceIdeal.S50000x16 .f32) (brow : FVec Ideal Cert.ReferenceIdeal.S1x16 .f32)
    (r : Fin 50000) (k : Fin 16) : Cert.Gcn.addBias16 a brow (ix2 r k) = a (ix2 r k) + brow (ix2 (0 : Fin 1) k) := by
  unfold Cert.Gcn.addBias16
  rw [addf_apply, HostForms.bcast_rows_apply]

/-- WHAT GRID POINT `t` WRITES BACK is row block `t` of the specification's output: the row-wise log-softmax of the
    aggregate plus the bias row, of the arrays the region finds at entry. -/
theorem flushed_eq (c : Dev nD) (t : Fin cfg3.N) :
    (dat3 V c).flushed 2 t = ((cfg3.win 2).blk t).view.read (Elt Ideal) (Cert.Gcn.lsmRef (F := Ideal) (Cert.Gcn.addBias16 (F := Ideal) (V c main_v58) (V c main_v59))) := by
  show (cfg3.win 2).cut (grid3.coords t) ((dat3 V c).after 2 t) = _
  rw [after3_2]
  unfold out3_2
  rw [View.canon_unit_zero hz]
  simp only [View.ld_unit_zero (S := S5000x16) hz, View.ld_unit_zero (S := S1x16) hz]
  refine funext fun (j : S5000x16.Idx) => ?_
  obtain ⟨p, q, rfl⟩ : ∃ (p : Fin 5000) (q : Fin 16), j = ix2 p q := ⟨j 0, j 1, eq_ix2 j⟩
  show k3_pay1 (F := Ideal) (iblk3 V c 1 t) (iblk3 V c 0 t) (ix2 p q)
    = (Cert.Gcn.lsmRef (F := Ideal) (Cert.Gcn.addBias16 (F := Ideal) (V c main_v58) (V c main_v59))) (((cfg3.win 2).blk t).view.emb (ix2 p q))
  rw [emb_out, k3_pay1_apply, lsmRef_apply]
  refine congrArg (fun z => rowLsm z q) (funext fun k => ?_)
  rw [iblk_agg_apply, iblk_bias_apply, addBias16_apply]

end Region

/-- An index of the output array is in grid point `t`'s block iff each coordinate is in the block's range on its axis. -/
theorem mem_blk (t : Fin cfg3.N) (i : S50000x16.Idx) :
    i ∈ ((cfg3.win 2).blk t).view.set ↔ ∀ a : Fin 2, win3_2.index t a * S5000x16.size a ≤ (i a).val
      ∧ (i a).val < win3_2.index t a * S5000x16.size a + S5000x16.size a := by
  show i ∈ ((View.whole main_v60).slice (win3_2.rect t)).set ↔ _
  rw [View.set_slice_whole, Rect.mem_set_unit]
  exact Iff.rfl

/-- THE ROW BLOCKS TILE THE OUTPUT: every index `(r, q)` of the `[50000, 16]` array lies in the block of the grid point
    `r / 5000`, which writes its block back. -/
theorem cover (i : S50000x16.Idx) :
    ∃ t : Fin cfg3.N, (cfg3.win 2).flush t = true ∧ i ∈ ((cfg3.win 2).blk t).view.set := by
  have hi0 : (i 0).val < 50000 := (i 0).isLt
  have hi1 : (i 1).val < 16 := (i 1).isLt
  have hN : cfg3.N = 10 := N_3
  have ht : (i 0).val / 5000 < cfg3.N := by rw [hN]; omega
  refine ⟨⟨(i 0).val / 5000, ht⟩, flush3_2 _, ?_⟩
  rw [mem_blk]
  obtain ⟨-, -, -, -, e0, e1⟩ := idx_facts ⟨(i 0).val / 5000, ht⟩
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win3_2.index ⟨(i 0).val / 5000, ht⟩ (1 : Fin 2) * 16 ≤ (i 1).val
      ∧ (i 1).val < win3_2.index ⟨(i 0).val / 5000, ht⟩ (1 : Fin 2) * 16 + 16
    rw [e1]
    omega

section Final
variable (V : (c : Dev nD) → (b : Ref sig .tc) → Buf (Elt Ideal) ((c : Thread nD τ).loc b))

/-- WHAT THE LAST REGION LEAVES IN ITS OUTPUT ARRAY: the specification's row-wise log-softmax of the aggregate plus the bias
    row, of the arrays the region finds at entry. -/
theorem final (c : Dev nD) :
    (dat3 (F := Ideal) V c).arrAt 2 cfg3.N = (Cert.Gcn.lsmRef (F := Ideal) (Cert.Gcn.addBias16 (F := Ideal) (V c main_v58) (V c main_v59))) :=
  (dat3 V c).arrAt_eq_of_cover 2 _ (fun t _ => flushed_eq V c t) cover

end Final

end Cert.Gcn.RegionSoftmax
-- ==== Proof.KernelValue.lean ====
/-
  The kernel program's result, as the specification's one composition of the six arguments.

  Walking the segment boundaries from the last to the first: the last region leaves the row-wise log-softmax of what
  the third stretch left plus the second bias row; the third stretch left the propagation of what the third region
  left; that region left the second dense product of what the second region left; the second region left the biased
  positive part of what the second stretch left; the second stretch left the propagation of what the first region
  left; and the first region left the first dense product of two arguments. A bias vector viewed as a row (the
  kernel program's spelling) is the same array as the vector broadcast along a new leading axis (the reference's).
-/
import proofs.«142514_j84009560309789_1_alg».proof.Proof.FoldStages
import proofs.«142514_j84009560309789_1_alg».proof.Proof.DensePoints
import proofs.«142514_j84009560309789_1_alg».proof.Proof.RegionDense1
import proofs.«142514_j84009560309789_1_alg».proof.Proof.RegionRelu
import proofs.«142514_j84009560309789_1_alg».proof.Proof.RegionDense2
import proofs.«142514_j84009560309789_1_alg».proof.Proof.RegionSoftmax

set_option maxRecDepth 16384

noncomputable section

namespace Cert.Gcn.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first region leaves the first dense product of the arguments. -/
theorem region0_out (c : Dev nD) :
    W2 m ρ c (Proc.devRef .tc main_v29)
      = Cert.Gcn.dense1 (F := Ideal) (m ((c : Thread nD τ).loc main_arg0)) (m ((c : Thread nD τ).loc main_arg2)) := by
  refine (W2_arr m ρ c 2).trans ?_
  rw [Cert.Gcn.RegionDense1.final (V1 m ρ) c]
  show Cert.Gcn.dense1 (F := Ideal) (W1 m ρ c (Proc.devRef .tc main_arg0)) (W1 m ρ c (Proc.devRef .tc main_arg2)) = _
  rw [entry_arg0, entry_arg2]

/-- The second region leaves the biased positive part of what the second stretch left. -/
theorem region1_out (c : Dev nD) :
    W4 m ρ c (Proc.devRef .tc main_v44)
      = Cert.Gcn.biasRelu (F := Ideal) (W3 m ρ c (Proc.devRef .tc main_v42)) (W3 m ρ c (Proc.devRef .tc main_v43)) :=
  (W4_arr m ρ c 2).trans (Cert.Gcn.RegionRelu.final (V3 m ρ) c)

/-- The third region leaves the second dense product of what the second region left. -/
theorem region2_out (c : Dev nD) :
    W5 m ρ c (Proc.devRef .tc main_v45)
      = Cert.Gcn.dense2 (F := Ideal) (W4 m ρ c (Proc.devRef .tc main_v44)) (m ((c : Thread nD τ).loc main_arg4)) := by
  refine (W5_arr m ρ c 2).trans ?_
  rw [Cert.Gcn.RegionDense2.final (V4 m ρ) c]
  show Cert.Gcn.dense2 (F := Ideal) (W4 m ρ c (Proc.devRef .tc main_v44)) (W4 m ρ c (Proc.devRef .tc main_arg4)) = _
  rw [after1_arg4]

/-- The last region leaves the row-wise log-softmax of what the third stretch left plus the bias row. -/
theorem region3_out (c : Dev nD) :
    W7 m ρ c (Proc.devRef .tc main_v60)
      = Cert.Gcn.lsmRef (F := Ideal) (Cert.Gcn.addBias16 (W6 m ρ c (Proc.devRef .tc main_v58)) (W6 m ρ c (Proc.devRef .tc main_v59))) :=
  (W7_arr m ρ c 2).trans (Cert.Gcn.RegionSoftmax.final (V6 m ρ) c)

/-- THE KERNEL PROGRAM'S RESULT: the specification's network of the six arguments. -/
theorem result_eq (c : Dev nD) :
    W7 m ρ c (Proc.devRef .tc main_v60)
      = Cert.Gcn.gcn (F := Ideal) (m ((c : Thread nD τ).loc main_arg0)) (m ((c : Thread nD τ).loc main_arg1))
          (m ((c : Thread nD τ).loc main_arg2)) (Cert.Gcn.biasRow64 (m ((c : Thread nD τ).loc main_arg3)))
          (m ((c : Thread nD τ).loc main_arg4)) (Cert.Gcn.biasRow16 (m ((c : Thread nD τ).loc main_arg5))) := by
  rw [region3_out, stretch3_agg, stretch3_bias, region2_out, region1_out, stretch1_agg, stretch1_bias, region0_out]
  have h64 := Cert.Gcn.DensePoints.bias_row_64_eq_biasRow64 (F := Ideal) (m ((c : Thread nD τ).loc main_arg3))
  have h16 := Cert.Gcn.DensePoints.bias_row_16_eq_biasRow16 (F := Ideal) (m ((c : Thread nD τ).loc main_arg5))
  unfold Cert.Gcn.gcn
  refine congrArg (Cert.Gcn.lsmRef (F := Ideal)) ?_
  refine congrArg₂ (Cert.Gcn.addBias16 (F := Ideal)) ?_ h16
  refine congrArg (fun h => Cert.Gcn.propagate16 (F := Ideal) h _) ?_
  refine congrArg (fun a => Cert.Gcn.dense2 (F := Ideal) a _) ?_
  exact congrArg (Cert.Gcn.biasRelu (F := Ideal) _) h64

end Cert.Gcn.Fold

end
-- ==== Proof.RefRun.lean ====
import proofs.«142514_j84009560309789_1_alg».proof.Proof.Gen.ReferenceIdeal
import proofs.«142514_j84009560309789_1_alg».proof.Proof.Spec
import Idealize.ShloMosaic.Lib.StableHlo.Run
import Idealize.ShloMosaic.PureOps.Ideal
/-
  The reference program's run, with its result stated as the specification's network.

  The program is a straight line of 94 host operations. It is read in four stretches: (A) the edge list's source and
  destination columns with the self-loops appended, the per-edge normalisation, and the first dense product; (B) the
  first propagation, the bias with the positive part, and the second dense product; (C) the second propagation and
  the second bias; (D) the row-wise log-softmax. After each stretch the buffers a later stretch reads hold the
  specification's named function of the arguments, and the argument buffers hold what they were launched with; the
  four compose to the whole network.
-/

set_option maxRecDepth 16384

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! ## The program as four stretches of host operations -/

/-- Stretch A: the edge columns, the normalisation, the first dense product (37 operations). -/
abbrev opsA : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x3F800000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (maximumf : (⟨S50000, .f32⟩ : BufTy).Contents (Elt F) → (⟨S50000, .f32⟩ : BufTy).Contents (Elt F) → (⟨S50000, .f32⟩ : BufTy).Contents (Elt F)),
    unary main_v12 main_v13 (Host.rsqrt : (⟨S50000, .f32⟩ : BufTy).Contents (Elt F) → (⟨S50000, .f32⟩ : BufTy).Contents (Elt F)),
    nullary main_c (constantI S_ 32 0#32),
    unary main_c main_v14 (broadcastInDim S850000 ![] bcast_S_S850000 : (⟨S_, .i32⟩ : BufTy).Contents (Elt F) → (⟨S850000, .i32⟩ : BufTy).Contents (Elt F)),
    binary main_v3 main_v14 main_v15 (cmpi .slt : (⟨S850000, .i32⟩ : BufTy).Contents (Elt F) → (⟨S850000, .i32⟩ : BufTy).Contents (Elt F) → (⟨S850000, .i1⟩ : BufTy).Contents (Elt F)),
    nullary main_c_2 (constantI S_ 32 50000#32),
    unary main_c_2 main_v16 (broadcastInDim S850000 ![] bcast_S_S850000 : (⟨S_, .i32⟩ : BufTy).Contents (Elt F) → (⟨S850000, .i32⟩ : BufTy).Contents (Elt F)),
    binary main_v3 main_v16 main_v17 (addi : (⟨S850000, .i32⟩ : BufTy).Contents (Elt F) → (⟨S850000, .i32⟩ : BufTy).Contents (Elt F) → (⟨S850000, .i32⟩ : BufTy).Contents (Elt F)),
    ternary main_v15 main_v17 main_v3 main_v18 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v18 main_v19 (broadcastInDim S850000x1 ![0] bcast_S850000_S850000x1_0 : (⟨S850000, .i32⟩ : BufTy).Contents (Elt F) → (⟨S850000x1, .i32⟩ : BufTy).Contents (Elt F)),
    binary main_v13 main_v19 main_v20 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_3 (constantI S_ 32 0#32),
    unary main_c_3 main_v21 (broadcastInDim S850000 ![] bcast_S_S850000 : (⟨S_, .i32⟩ : BufTy).Contents (Elt F) → (⟨S850000, .i32⟩ : BufTy).Contents (Elt F)),
    binary main_v6 main_v21 main_v22 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (addi : (⟨S850000, .i32⟩ : BufTy).Contents (Elt F) → (⟨S850000, .i32⟩ : BufTy).Contents (Elt F) → (⟨S850000, .i32⟩ : BufTy).Contents (Elt F)),
    ternary main_v22 main_v24 main_v6 main_v25 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v25 main_v26 (broadcastInDim S850000x1 ![0] bcast_S850000_S850000x1_0 : (⟨S850000, .i32⟩ : BufTy).Contents (Elt F) → (⟨S850000x1, .i32⟩ : BufTy).Contents (Elt F)),
    binary main_v13 main_v26 main_v27 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v20 main_v27 main_v28 (mulf : (⟨S850000, .f32⟩ : BufTy).Contents (Elt F) → (⟨S850000, .f32⟩ : BufTy).Contents (Elt F) → (⟨S850000, .f32⟩ : BufTy).Contents (Elt F)),
    binary main_arg0 main_arg2 main_v29 ((fun l r => Host.dotGeneral dot_S50000x512_S512x64_S50000x64_1_0_0_1_n_n none l r) : (⟨S50000x512, .f32⟩ : BufTy).Contents (Elt F) → (⟨S512x64, .f32⟩ : BufTy).Contents (Elt F) → (⟨S50000x64, .f32⟩ : BufTy).Contents (Elt F)) ]

set_option maxRecDepth 8192 in
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

/-- Stretch B: the first propagation, the bias and the positive part, the second dense product (23 operations). -/
abbrev opsB : List (HloOp τ sig (Elt F)) :=
  [ nullary main_c_5 (constantI S_ 32 0#32),
    unary main_c_5 main_v30 (broadcastInDim S850000 ![] bcast_S_S850000 : (⟨S_, .i32⟩ : BufTy).Contents (Elt F) → (⟨S850000, .i32⟩ : BufTy).Contents (Elt F)),
    binary main_v3 main_v30 main_v31 (cmpi .slt : (⟨S850000, .i32⟩ : BufTy).Contents (Elt F) → (⟨S850000, .i32⟩ : BufTy).Contents (Elt F) → (⟨S850000, .i1⟩ : BufTy).Contents (Elt F)),
    nullary main_c_6 (constantI S_ 32 50000#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (addi : (⟨S850000, .i32⟩ : BufTy).Contents (Elt F) → (⟨S850000, .i32⟩ : BufTy).Contents (Elt F) → (⟨S850000, .i32⟩ : BufTy).Contents (Elt F)),
    ternary main_v31 main_v33 main_v3 main_v34 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v34 main_v35 (broadcastInDim S850000x1 ![0] bcast_S850000_S850000x1_0 : (⟨S850000, .i32⟩ : BufTy).Contents (Elt F) → (⟨S850000x1, .i32⟩ : BufTy).Contents (Elt F)),
    binary main_v29 main_v35 main_v36 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v28 main_v37 (broadcastInDim S850000x1 ![0] bcast_S850000_S850000x1_0 : (⟨S850000, .f32⟩ : BufTy).Contents (Elt F) → (⟨S850000x1, .f32⟩ : BufTy).Contents (Elt F)),
    unary main_v37 main_v38 (broadcastInDim S850000x64 ![0, 1] bcast_S850000x1_S850000x64_0_1 : (⟨S850000x1, .f32⟩ : BufTy).Contents (Elt F) → (⟨S850000x64, .f32⟩ : BufTy).Contents (Elt F)),
    binary main_v36 main_v38 main_v39 (mulf : (⟨S850000x64, .f32⟩ : BufTy).Contents (Elt F) → (⟨S850000x64, .f32⟩ : BufTy).Contents (Elt F) → (⟨S850000x64, .f32⟩ : BufTy).Contents (Elt F)),
    nullary main_cst_7 (constant S_ .f32 0x00000000#32),
    unary main_cst_7 main_v40 (broadcastInDim S50000x64 ![] bcast_S_S50000x64 : (⟨S_, .f32⟩ : BufTy).Contents (Elt F) → (⟨S50000x64, .f32⟩ : BufTy).Contents (Elt F)),
    unary main_v6 main_v41 (broadcastInDim S850000x1 ![0] bcast_S850000_S850000x1_0 : (⟨S850000, .i32⟩ : BufTy).Contents (Elt F) → (⟨S850000x1, .i32⟩ : BufTy).Contents (Elt F)),
    ternary main_v40 main_v41 main_v39 main_v42 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg3 main_v43 (broadcastInDim S1x64 ![1] bcast_S64_S1x64_1 : (⟨S64, .f32⟩ : BufTy).Contents (Elt F) → (⟨S1x64, .f32⟩ : BufTy).Contents (Elt F)),
    unary main_v43 main_v44 (broadcastInDim S50000x64 ![0, 1] bcast_S1x64_S50000x64_0_1 : (⟨S1x64, .f32⟩ : BufTy).Contents (Elt F) → (⟨S50000x64, .f32⟩ : BufTy).Contents (Elt F)),
    binary main_v42 main_v44 main_v45 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v45) (TRef.of (T := ⟨S50000x64, .f32⟩) main_call0_v0) (TRef.of (T := ⟨S50000x64, .f32⟩) main_v46) maximumf,
    binary main_v46 main_arg4 main_v47 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)) ]

set_option maxRecDepth 8192 in
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub ..⟩

/-- Stretch C: the second propagation and the second bias (19 operations). -/
abbrev opsC : List (HloOp τ sig (Elt F)) :=
  [ nullary main_c_8 (constantI S_ 32 0#32),
    unary main_c_8 main_v48 (broadcastInDim S850000 ![] bcast_S_S850000 : (⟨S_, .i32⟩ : BufTy).Contents (Elt F) → (⟨S850000, .i32⟩ : BufTy).Contents (Elt F)),
    binary main_v3 main_v48 main_v49 (cmpi .slt : (⟨S850000, .i32⟩ : BufTy).Contents (Elt F) → (⟨S850000, .i32⟩ : BufTy).Contents (Elt F) → (⟨S850000, .i1⟩ : BufTy).Contents (Elt F)),
    nullary main_c_9 (constantI S_ 32 50000#32),
    unary main_c_9 main_v50 (broadcastInDim S850000 ![] bcast_S_S850000 : (⟨S_, .i32⟩ : BufTy).Contents (Elt F) → (⟨S850000, .i32⟩ : BufTy).Contents (Elt F)),
    binary main_v3 main_v50 main_v51 (addi : (⟨S850000, .i32⟩ : BufTy).Contents (Elt F) → (⟨S850000, .i32⟩ : BufTy).Contents (Elt F) → (⟨S850000, .i32⟩ : BufTy).Contents (Elt F)),
    ternary main_v49 main_v51 main_v3 main_v52 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v52 main_v53 (broadcastInDim S850000x1 ![0] bcast_S850000_S850000x1_0 : (⟨S850000, .i32⟩ : BufTy).Contents (Elt F) → (⟨S850000x1, .i32⟩ : BufTy).Contents (Elt F)),
    binary main_v47 main_v53 main_v54 ((fun x i => Host.gather gather_S50000x16_S850000x1_S850000x16_1_0_n_n_0_1_116 x i) : (⟨S50000x16, .f32⟩ : BufTy).Contents (Elt F) → (⟨S850000x1, .i32⟩ : BufTy).Contents (Elt F) → (⟨S850000x16, .f32⟩ : BufTy).Contents (Elt F)),
    unary main_v28 main_v55 (broadcastInDim S850000x1 ![0] bcast_S850000_S850000x1_0 : (⟨S850000, .f32⟩ : BufTy).Contents (Elt F) → (⟨S850000x1, .f32⟩ : BufTy).Contents (Elt F)),
    unary main_v55 main_v56 (broadcastInDim S850000x16 ![0, 1] bcast_S850000x1_S850000x16_0_1 : (⟨S850000x1, .f32⟩ : BufTy).Contents (Elt F) → (⟨S850000x16, .f32⟩ : BufTy).Contents (Elt F)),
    binary main_v54 main_v56 main_v57 (mulf : (⟨S850000x16, .f32⟩ : BufTy).Contents (Elt F) → (⟨S850000x16, .f32⟩ : BufTy).Contents (Elt F) → (⟨S850000x16, .f32⟩ : BufTy).Contents (Elt F)),
    nullary main_cst_10 (constant S_ .f32 0x00000000#32),
    unary main_cst_10 main_v58 (broadcastInDim S50000x16 ![] bcast_S_S50000x16 : (⟨S_, .f32⟩ : BufTy).Contents (Elt F) → (⟨S50000x16, .f32⟩ : BufTy).Contents (Elt F)),
    unary main_v6 main_v59 (broadcastInDim S850000x1 ![0] bcast_S850000_S850000x1_0 : (⟨S850000, .i32⟩ : BufTy).Contents (Elt F) → (⟨S850000x1, .i32⟩ : BufTy).Contents (Elt F)),
    ternary main_v58 main_v59 main_v57 main_v60 ((fun x i u => Host.scatterAdd scatter_S50000x16_S850000x1_S850000x16_1_0_0_1 x i u) : (⟨S50000x16, .f32⟩ : BufTy).Contents (Elt F) → (⟨S850000x1, .i32⟩ : BufTy).Contents (Elt F) → (⟨S850000x16, .f32⟩ : BufTy).Contents (Elt F) → (⟨S50000x16, .f32⟩ : BufTy).Contents (Elt F)),
    unary main_arg5 main_v61 (broadcastInDim S1x16 ![1] bcast_S16_S1x16_1 : (⟨S16, .f32⟩ : BufTy).Contents (Elt F) → (⟨S1x16, .f32⟩ : BufTy).Contents (Elt F)),
    unary main_v61 main_v62 (broadcastInDim S50000x16 ![0, 1] bcast_S1x16_S50000x16_0_1 : (⟨S1x16, .f32⟩ : BufTy).Contents (Elt F) → (⟨S50000x16, .f32⟩ : BufTy).Contents (Elt F)),
    binary main_v60 main_v62 main_v63 (addf : (⟨S50000x16, .f32⟩ : BufTy).Contents (Elt F) → (⟨S50000x16, .f32⟩ : BufTy).Contents (Elt F) → (⟨S50000x16, .f32⟩ : BufTy).Contents (Elt F)) ]

set_option maxRecDepth 8192 in
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- Stretch D: the row-wise log-softmax (15 operations). -/
abbrev opsD : List (HloOp τ sig (Elt F)) :=
  [ TRef.nullary (TRef.of (T := ⟨S_, .f32⟩) main_call1_cst) (constant S_ .f32 0xFF800000#32),
    TRef.binary (TRef.of (T := ⟨S50000x16, .f32⟩) main_v63) (TRef.of (T := ⟨S_, .f32⟩) main_call1_cst) (TRef.of (T := ⟨S50000, .f32⟩) main_call1_v0) (fun x v => Host.reduce FloatOps.maximumf x v reducesTo_S50000x16_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x16, .f32⟩) main_call1_v4) (broadcastInDim S50000x16 ![0, 1] bcast_S50000x1_S50000x16_0_1),
    TRef.binary (TRef.of (T := ⟨S50000x16, .f32⟩) main_v63) (TRef.of (T := ⟨S50000x16, .f32⟩) main_call1_v4) (TRef.of (T := ⟨S50000x16, .f32⟩) main_call1_v5) subf,
    TRef.unary (TRef.of (T := ⟨S50000x16, .f32⟩) main_call1_v5) (TRef.of (T := ⟨S50000x16, .f32⟩) main_call1_v6) Host.exp,
    TRef.nullary (TRef.of (T := ⟨S_, .f32⟩) main_call1_cst_1) (constant S_ .f32 0x00000000#32),
    TRef.binary (TRef.of (T := ⟨S50000x16, .f32⟩) main_call1_v6) (TRef.of (T := ⟨S_, .f32⟩) main_call1_cst_1) (TRef.of (T := ⟨S50000, .f32⟩) main_call1_v7) (fun x v => Host.reduceAdd x v reducesTo_S50000x16_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x16, .f32⟩) main_call1_v10) (broadcastInDim S50000x16 ![0, 1] bcast_S50000x1_S50000x16_0_1),
    TRef.binary (TRef.of (T := ⟨S50000x16, .f32⟩) main_call1_v5) (TRef.of (T := ⟨S50000x16, .f32⟩) main_call1_v10) (TRef.of (T := ⟨S50000x16, .f32⟩) main_v64) subf ]

set_option maxRecDepth 8192 in
theorem opsD_sub : (opsD : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The whole program: the four stretches in order. -/
abbrev ops : List (HloOp τ sig (Elt F)) := opsA ++ opsB ++ opsC ++ opsD

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_append.mpr ⟨List.forall_append.mpr ⟨List.forall_append.mpr ⟨opsA_sub, opsB_sub⟩, opsC_sub⟩, opsD_sub⟩

/-- The contents after two lines run one after the other: the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The inlined functions' operations

An operation of an inlined function (the positive part; the row-wise log-softmax) moves its operands and its result
between a buffer's own contents type and the tensor type the function states; the two types are the same, so each move
is the identity and the operation's result is its function of its operands' contents. -/

theorem tref_main_call0_cst (V : Valuation τ sig (Elt F)) :
    (TRef.nullary (TRef.of (T := ⟨S_, .f32⟩) main_call0_cst) (constant S_ .f32 0x00000000#32) : HloOp τ sig (Elt F)).result V (no_index (Proc.devRef .tc main_call0_cst))
      = ((constant S_ .f32 0x00000000#32) : FVec F S_ .f32) := by
  rw [nullary_result]; rfl

theorem tref_main_call0_v0 (V : Valuation τ sig (Elt F)) :
    (TRef.unary (TRef.of (T := ⟨S_, .f32⟩) main_call0_cst) (TRef.of (T := ⟨S50000x64, .f32⟩) main_call0_v0) (broadcastInDim S50000x64 ![] bcast_S_S50000x64) : HloOp τ sig (Elt F)).result V (no_index (Proc.devRef .tc main_call0_v0))
      = ((broadcastInDim S50000x64 ![] bcast_S_S50000x64) (V (Proc.devRef .tc main_call0_cst) : FVec F S_ .f32) : FVec F S50000x64 .f32) := by
  rw [unary_result]; rfl

theorem tref_main_v46 (V : Valuation τ sig (Elt F)) :
    (TRef.binary (TRef.of (T := ⟨S50000x64, .f32⟩) main_v45) (TRef.of (T := ⟨S50000x64, .f32⟩) main_call0_v0) (TRef.of (T := ⟨S50000x64, .f32⟩) main_v46) maximumf : HloOp τ sig (Elt F)).result V (no_index (Proc.devRef .tc main_v46))
      = (maximumf (V (Proc.devRef .tc main_v45) : FVec F S50000x64 .f32) (V (Proc.devRef .tc main_call0_v0) : FVec F S50000x64 .f32) : FVec F S50000x64 .f32) := by
  rw [binary_result]; rfl

theorem tref_main_call1_cst (V : Valuation τ sig (Elt F)) :
    (TRef.nullary (TRef.of (T := ⟨S_, .f32⟩) main_call1_cst) (constant S_ .f32 0xFF800000#32) : HloOp τ sig (Elt F)).result V (no_index (Proc.devRef .tc main_call1_cst))
      = ((constant S_ .f32 0xFF800000#32) : FVec F S_ .f32) := by
  rw [nullary_result]; rfl

theorem tref_main_call1_v0 (V : Valuation τ sig (Elt F)) :
    (TRef.binary (TRef.of (T := ⟨S50000x16, .f32⟩) main_v63) (TRef.of (T := ⟨S_, .f32⟩) main_call1_cst) (TRef.of (T := ⟨S50000, .f32⟩) main_call1_v0) (fun x v => Host.reduce FloatOps.maximumf x v reducesTo_S50000x16_S50000_d1 h_S_) : HloOp τ sig (Elt F)).result V (no_index (Proc.devRef .tc main_call1_v0))
      = ((fun x v => Host.reduce FloatOps.maximumf x v reducesTo_S50000x16_S50000_d1 h_S_) (V (Proc.devRef .tc main_v63) : FVec F S50000x16 .f32) (V (Proc.devRef .tc main_call1_cst) : FVec F S_ .f32) : FVec F S50000 .f32) := by
  rw [binary_result]
  simp only [TRef.toBuf, TRef.ofBuf]
  rw [show ∀ (h : main_v63.ty.Contents (Elt F) = (⟨S50000x16, .f32⟩ : BufTy).Contents (Elt F)) (v : main_v63.ty.Contents (Elt F)), cast h v = v from fun _ _ => rfl,
    show ∀ (h : main_call1_cst.ty.Contents (Elt F) = (⟨S_, .f32⟩ : BufTy).Contents (Elt F)) (v : main_call1_cst.ty.Contents (Elt F)), cast h v = v from fun _ _ => rfl,
    show ∀ (h : (⟨S50000, .f32⟩ : BufTy).Contents (Elt F) = main_call1_v0.ty.Contents (Elt F)) (v : (⟨S50000, .f32⟩ : BufTy).Contents (Elt F)), cast h v = v from fun _ _ => rfl]

theorem tref_main_call1_cst_0 (V : Valuation τ sig (Elt F)) :
    (TRef.nullary (TRef.of (T := ⟨S_, .f32⟩) main_call1_cst_0) (constant S_ .f32 0xFF800000#32) : HloOp τ sig (Elt F)).result V (no_index (Proc.devRef .tc main_call1_cst_0))
      = ((constant S_ .f32 0xFF800000#32) : FVec F S_ .f32) := by
  rw [nullary_result]; rfl

theorem tref_main_call1_v1 (V : Valuation τ sig (Elt F)) :
    (TRef.unary (TRef.of (T := ⟨S_, .f32⟩) main_call1_cst_0) (TRef.of (T := ⟨S50000, .f32⟩) main_call1_v1) (broadcastInDim S50000 ![] bcast_S_S50000) : HloOp τ sig (Elt F)).result V (no_index (Proc.devRef .tc main_call1_v1))
      = ((broadcastInDim S50000 ![] bcast_S_S50000) (V (Proc.devRef .tc main_call1_cst_0) : FVec F S_ .f32) : FVec F S50000 .f32) := by
  rw [unary_result]; rfl

theorem tref_main_call1_v2 (V : Valuation τ sig (Elt F)) :
    (TRef.binary (TRef.of (T := ⟨S50000, .f32⟩) main_call1_v1) (TRef.of (T := ⟨S50000, .f32⟩) main_call1_v0) (TRef.of (T := ⟨S50000, .f32⟩) main_call1_v2) maximumf : HloOp τ sig (Elt F)).result V (no_index (Proc.devRef .tc main_call1_v2))
      = (maximumf (V (Proc.devRef .tc main_call1_v1) : FVec F S50000 .f32) (V (Proc.devRef .tc main_call1_v0) : FVec F S50000 .f32) : FVec F S50000 .f32) := by
  rw [binary_result]; rfl

theorem tref_main_call1_v3 (V : Valuation τ sig (Elt F)) :
    (TRef.unary (TRef.of (T := ⟨S50000, .f32⟩) main_call1_v2) (TRef.of (T := ⟨S50000x1, .f32⟩) main_call1_v3) (broadcastInDim S50000x1 ![0] bcast_S50000_S50000x1_0) : HloOp τ sig (Elt F)).result V (no_index (Proc.devRef .tc main_call1_v3))
      = ((broadcastInDim S50000x1 ![0] bcast_S50000_S50000x1_0) (V (Proc.devRef .tc main_call1_v2) : FVec F S50000 .f32) : FVec F S50000x1 .f32) := by
  rw [unary_result]; rfl

theorem tref_main_call1_v4 (V : Valuation τ sig (Elt F)) :
    (TRef.unary (TRef.of (T := ⟨S50000x1, .f32⟩) main_call1_v3) (TRef.of (T := ⟨S50000x16, .f32⟩) main_call1_v4) (broadcastInDim S50000x16 ![0, 1] bcast_S50000x1_S50000x16_0_1) : HloOp τ sig (Elt F)).result V (no_index (Proc.devRef .tc main_call1_v4))
      = ((broadcastInDim S50000x16 ![0, 1] bcast_S50000x1_S50000x16_0_1) (V (Proc.devRef .tc main_call1_v3) : FVec F S50000x1 .f32) : FVec F S50000x16 .f32) := by
  rw [unary_result]; rfl

theorem tref_main_call1_v5 (V : Valuation τ sig (Elt F)) :
    (TRef.binary (TRef.of (T := ⟨S50000x16, .f32⟩) main_v63) (TRef.of (T := ⟨S50000x16, .f32⟩) main_call1_v4) (TRef.of (T := ⟨S50000x16, .f32⟩) main_call1_v5) subf : HloOp τ sig (Elt F)).result V (no_index (Proc.devRef .tc main_call1_v5))
      = (subf (V (Proc.devRef .tc main_v63) : FVec F S50000x16 .f32) (V (Proc.devRef .tc main_call1_v4) : FVec F S50000x16 .f32) : FVec F S50000x16 .f32) := by
  rw [binary_result]; rfl

theorem tref_main_call1_v6 (V : Valuation τ sig (Elt F)) :
    (TRef.unary (TRef.of (T := ⟨S50000x16, .f32⟩) main_call1_v5) (TRef.of (T := ⟨S50000x16, .f32⟩) main_call1_v6) Host.exp : HloOp τ sig (Elt F)).result V (no_index (Proc.devRef .tc main_call1_v6))
      = (Host.exp (V (Proc.devRef .tc main_call1_v5) : FVec F S50000x16 .f32) : FVec F S50000x16 .f32) := by
  rw [unary_result]; rfl

theorem tref_main_call1_cst_1 (V : Valuation τ sig (Elt F)) :
    (TRef.nullary (TRef.of (T := ⟨S_, .f32⟩) main_call1_cst_1) (constant S_ .f32 0x00000000#32) : HloOp τ sig (Elt F)).result V (no_index (Proc.devRef .tc main_call1_cst_1))
      = ((constant S_ .f32 0x00000000#32) : FVec F S_ .f32) := by
  rw [nullary_result]; rfl

theorem tref_main_call1_v7 (V : Valuation τ sig (Elt F)) :
    (TRef.binary (TRef.of (T := ⟨S50000x16, .f32⟩) main_call1_v6) (TRef.of (T := ⟨S_, .f32⟩) main_call1_cst_1) (TRef.of (T := ⟨S50000, .f32⟩) main_call1_v7) (fun x v => Host.reduceAdd x v reducesTo_S50000x16_S50000_d1 h_S_) : HloOp τ sig (Elt F)).result V (no_index (Proc.devRef .tc main_call1_v7))
      = ((fun x v => Host.reduceAdd x v reducesTo_S50000x16_S50000_d1 h_S_) (V (Proc.devRef .tc main_call1_v6) : FVec F S50000x16 .f32) (V (Proc.devRef .tc main_call1_cst_1) : FVec F S_ .f32) : FVec F S50000 .f32) := by
  rw [binary_result]; rfl

theorem tref_main_call1_v8 (V : Valuation τ sig (Elt F)) :
    (TRef.unary (TRef.of (T := ⟨S50000, .f32⟩) main_call1_v7) (TRef.of (T := ⟨S50000x1, .f32⟩) main_call1_v8) (broadcastInDim S50000x1 ![0] bcast_S50000_S50000x1_0) : HloOp τ sig (Elt F)).result V (no_index (Proc.devRef .tc main_call1_v8))
      = ((broadcastInDim S50000x1 ![0] bcast_S50000_S50000x1_0) (V (Proc.devRef .tc main_call1_v7) : FVec F S50000 .f32) : FVec F S50000x1 .f32) := by
  rw [unary_result]; rfl

theorem tref_main_call1_v9 (V : Valuation τ sig (Elt F)) :
    (TRef.unary (TRef.of (T := ⟨S50000x1, .f32⟩) main_call1_v8) (TRef.of (T := ⟨S50000x1, .f32⟩) main_call1_v9) Host.log : HloOp τ sig (Elt F)).result V (no_index (Proc.devRef .tc main_call1_v9))
      = (Host.log (V (Proc.devRef .tc main_call1_v8) : FVec F S50000x1 .f32) : FVec F S50000x1 .f32) := by
  rw [unary_result]; rfl

theorem tref_main_call1_v10 (V : Valuation τ sig (Elt F)) :
    (TRef.unary (TRef.of (T := ⟨S50000x1, .f32⟩) main_call1_v9) (TRef.of (T := ⟨S50000x16, .f32⟩) main_call1_v10) (broadcastInDim S50000x16 ![0, 1] bcast_S50000x1_S50000x16_0_1) : HloOp τ sig (Elt F)).result V (no_index (Proc.devRef .tc main_call1_v10))
      = ((broadcastInDim S50000x16 ![0, 1] bcast_S50000x1_S50000x16_0_1) (V (Proc.devRef .tc main_call1_v9) : FVec F S50000x1 .f32) : FVec F S50000x16 .f32) := by
  rw [unary_result]; rfl

theorem tref_main_v64 (V : Valuation τ sig (Elt F)) :
    (TRef.binary (TRef.of (T := ⟨S50000x16, .f32⟩) main_call1_v5) (TRef.of (T := ⟨S50000x16, .f32⟩) main_call1_v10) (TRef.of (T := ⟨S50000x16, .f32⟩) main_v64) subf : HloOp τ sig (Elt F)).result V (no_index (Proc.devRef .tc main_v64))
      = (subf (V (Proc.devRef .tc main_call1_v5) : FVec F S50000x16 .f32) (V (Proc.devRef .tc main_call1_v10) : FVec F S50000x16 .f32) : FVec F S50000x16 .f32) := by
  rw [binary_result]; rfl

/-! ## Reading a stretch -/

/-- The program's two-piece concatenation (a column of the edge list, then the self-loops) as a function of its two
    pieces, so that a rewrite can reach inside the pieces. -/
def cat2 (a : (⟨S800000, .i32⟩ : BufTy).Contents (Elt Ideal)) (b : (⟨S50000, .i32⟩ : BufTy).Contents (Elt Ideal)) :
    (⟨S850000, .i32⟩ : BufTy).Contents (Elt Ideal) :=
  concatenate S850000 0 [⟨S800000, a⟩, ⟨S50000, b⟩] Cert.ReferenceIdeal.Facts₀.concatenates_S800000_S50000_S850000_d0

theorem cat2_eq (a : (⟨S800000, .i32⟩ : BufTy).Contents (Elt Ideal)) (b : (⟨S50000, .i32⟩ : BufTy).Contents (Elt Ideal)) :
    concatenate S850000 0 [⟨S800000, a⟩, ⟨S50000, b⟩] Cert.ReferenceIdeal.Facts₀.concatenates_S800000_S50000_S850000_d0 = cat2 a b := rfl

/-- Reads a buffer after a literal stretch of host operations in one pass: every operation's result at its own buffer
    is its function of its operands' contents, and at any other buffer what was there. -/
macro "read_stretch" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_eq,
      ↓tref_main_call0_cst, ↓tref_main_call0_v0, ↓tref_main_v46, ↓tref_main_call1_cst, ↓tref_main_call1_v0,
      ↓tref_main_call1_cst_0, ↓tref_main_call1_v1, ↓tref_main_call1_v2, ↓tref_main_call1_v3, ↓tref_main_call1_v4,
      ↓tref_main_call1_v5, ↓tref_main_call1_v6, ↓tref_main_call1_cst_1, ↓tref_main_call1_v7, ↓tref_main_call1_v8,
      ↓tref_main_call1_v9, ↓tref_main_call1_v10, ↓tref_main_v64]))

variable (m : (ℓ : Loc nD τ sig) → Buf (Elt Ideal) ℓ)

/-- The buffers' contents after stretch A, from the launch contents. -/
def VA (c : Dev nD) : Valuation τ sig (Elt Ideal) := after opsA (launchContents m c)
/-- … after stretch B. -/
def VB (c : Dev nD) : Valuation τ sig (Elt Ideal) := after opsB (VA m c)
/-- … after stretch C. -/
def VC (c : Dev nD) : Valuation τ sig (Elt Ideal) := after opsC (VB m c)
/-- … after stretch D: the end of the program. -/
def VD (c : Dev nD) : Valuation τ sig (Elt Ideal) := after opsD (VC m c)

/-- The contents after the whole program are the contents after the fourth stretch. -/
theorem after_ops (c : Dev nD) : after ops (launchContents m c) = VD m c := by
  show after (opsA ++ opsB ++ opsC ++ opsD) (launchContents m c) = _
  rw [after_append, after_append, after_append]
  rfl

/-! ## Stretch A -/

/-- After stretch A the source column is the specification's. -/
theorem VA_src (c : Dev nD) :
    VA m c (Proc.devRef .tc main_v3) = Cert.Gcn.srcIdx (F := Ideal) (m ((c.tc : Thread nD τ).loc main_arg1)) := by
  show after opsA (launchContents m c) (Proc.devRef .tc main_v3) = _
  read_stretch
  rfl

/-- After stretch A the destination column is the specification's. -/
theorem VA_dst (c : Dev nD) :
    VA m c (Proc.devRef .tc main_v6) = Cert.Gcn.dstIdx (F := Ideal) (m ((c.tc : Thread nD τ).loc main_arg1)) := by
  show after opsA (launchContents m c) (Proc.devRef .tc main_v6) = _
  read_stretch
  rfl

/-- After stretch A the per-edge normalisation is the specification's. -/
theorem VA_norm (c : Dev nD) :
    VA m c (Proc.devRef .tc main_v28) = Cert.Gcn.edgeNorm (F := Ideal) (m ((c.tc : Thread nD τ).loc main_arg1)) := by
  show after opsA (launchContents m c) (Proc.devRef .tc main_v28) = _
  read_stretch
  rfl

/-- After stretch A the first dense product is the specification's. -/
theorem VA_dense (c : Dev nD) :
    VA m c (Proc.devRef .tc main_v29)
      = Cert.Gcn.dense1 (F := Ideal) (m ((c.tc : Thread nD τ).loc main_arg0)) (m ((c.tc : Thread nD τ).loc main_arg2)) := by
  show after opsA (launchContents m c) (Proc.devRef .tc main_v29) = _
  read_stretch
  rfl

theorem VA_arg0 (c : Dev nD) : VA m c (Proc.devRef .tc main_arg0) = m ((c.tc : Thread nD τ).loc main_arg0) := by
  show after opsA (launchContents m c) (Proc.devRef .tc main_arg0) = _
  read_stretch
theorem VA_arg1 (c : Dev nD) : VA m c (Proc.devRef .tc main_arg1) = m ((c.tc : Thread nD τ).loc main_arg1) := by
  show after opsA (launchContents m c) (Proc.devRef .tc main_arg1) = _
  read_stretch
theorem VA_arg2 (c : Dev nD) : VA m c (Proc.devRef .tc main_arg2) = m ((c.tc : Thread nD τ).loc main_arg2) := by
  show after opsA (launchContents m c) (Proc.devRef .tc main_arg2) = _
  read_stretch
theorem VA_arg3 (c : Dev nD) : VA m c (Proc.devRef .tc main_arg3) = m ((c.tc : Thread nD τ).loc main_arg3) := by
  show after opsA (launchContents m c) (Proc.devRef .tc main_arg3) = _
  read_stretch
theorem VA_arg4 (c : Dev nD) : VA m c (Proc.devRef .tc main_arg4) = m ((c.tc : Thread nD τ).loc main_arg4) := by
  show after opsA (launchContents m c) (Proc.devRef .tc main_arg4) = _
  read_stretch
theorem VA_arg5 (c : Dev nD) : VA m c (Proc.devRef .tc main_arg5) = m ((c.tc : Thread nD τ).loc main_arg5) := by
  show after opsA (launchContents m c) (Proc.devRef .tc main_arg5) = _
  read_stretch

/-! ## Stretch B -/

/-- After stretch B the second dense product is the specification's, of the first propagation with its bias and
    positive part. -/
theorem VB_dense (c : Dev nD) :
    VB m c (Proc.devRef .tc main_v47) = Cert.Gcn.dense2 (F := Ideal) (Cert.Gcn.biasRelu (F := Ideal) (Cert.Gcn.propagate64 (F := Ideal) (Cert.Gcn.dense1 (F := Ideal) (m ((c.tc : Thread nD τ).loc main_arg0)) (m ((c.tc : Thread nD τ).loc main_arg2))) (m ((c.tc : Thread nD τ).loc main_arg1))) (Cert.Gcn.biasRow64 (m ((c.tc : Thread nD τ).loc main_arg3)))) (m ((c.tc : Thread nD τ).loc main_arg4)) := by
  show after opsB (VA m c) (Proc.devRef .tc main_v47) = _
  read_stretch
  rw [VA_src, VA_dst, VA_norm, VA_dense, VA_arg3, VA_arg4]
  rfl

/-- Stretch B keeps the edge columns, the normalisation and the arguments. -/
theorem VB_src (c : Dev nD) : VB m c (Proc.devRef .tc main_v3) = Cert.Gcn.srcIdx (F := Ideal) (m ((c.tc : Thread nD τ).loc main_arg1)) := by
  show after opsB (VA m c) (Proc.devRef .tc main_v3) = _
  read_stretch
  exact VA_src m c
theorem VB_dst (c : Dev nD) : VB m c (Proc.devRef .tc main_v6) = Cert.Gcn.dstIdx (F := Ideal) (m ((c.tc : Thread nD τ).loc main_arg1)) := by
  show after opsB (VA m c) (Proc.devRef .tc main_v6) = _
  read_stretch
  exact VA_dst m c
theorem VB_norm (c : Dev nD) : VB m c (Proc.devRef .tc main_v28) = Cert.Gcn.edgeNorm (F := Ideal) (m ((c.tc : Thread nD τ).loc main_arg1)) := by
  show after opsB (VA m c) (Proc.devRef .tc main_v28) = _
  read_stretch
  exact VA_norm m c
theorem VB_arg0 (c : Dev nD) : VB m c (Proc.devRef .tc main_arg0) = m ((c.tc : Thread nD τ).loc main_arg0) := by
  show after opsB (VA m c) (Proc.devRef .tc main_arg0) = _
  read_stretch
  exact VA_arg0 m c
theorem VB_arg1 (c : Dev nD) : VB m c (Proc.devRef .tc main_arg1) = m ((c.tc : Thread nD τ).loc main_arg1) := by
  show after opsB (VA m c) (Proc.devRef .tc main_arg1) = _
  read_stretch
  exact VA_arg1 m c
theorem VB_arg2 (c : Dev nD) : VB m c (Proc.devRef .tc main_arg2) = m ((c.tc : Thread nD τ).loc main_arg2) := by
  show after opsB (VA m c) (Proc.devRef .tc main_arg2) = _
  read_stretch
  exact VA_arg2 m c
theorem VB_arg3 (c : Dev nD) : VB m c (Proc.devRef .tc main_arg3) = m ((c.tc : Thread nD τ).loc main_arg3) := by
  show after opsB (VA m c) (Proc.devRef .tc main_arg3) = _
  read_stretch
  exact VA_arg3 m c
theorem VB_arg4 (c : Dev nD) : VB m c (Proc.devRef .tc main_arg4) = m ((c.tc : Thread nD τ).loc main_arg4) := by
  show after opsB (VA m c) (Proc.devRef .tc main_arg4) = _
  read_stretch
  exact VA_arg4 m c
theorem VB_arg5 (c : Dev nD) : VB m c (Proc.devRef .tc main_arg5) = m ((c.tc : Thread nD τ).loc main_arg5) := by
  show after opsB (VA m c) (Proc.devRef .tc main_arg5) = _
  read_stretch
  exact VA_arg5 m c

/-! ## Stretch C -/

/-- After stretch C: the second propagation plus the second bias row. -/
theorem VC_logits (c : Dev nD) :
    VC m c (Proc.devRef .tc main_v63) = Cert.Gcn.addBias16 (F := Ideal) (Cert.Gcn.propagate16 (F := Ideal) (Cert.Gcn.dense2 (F := Ideal) (Cert.Gcn.biasRelu (F := Ideal) (Cert.Gcn.propagate64 (F := Ideal) (Cert.Gcn.dense1 (F := Ideal) (m ((c.tc : Thread nD τ).loc main_arg0)) (m ((c.tc : Thread nD τ).loc main_arg2))) (m ((c.tc : Thread nD τ).loc main_arg1))) (Cert.Gcn.biasRow64 (m ((c.tc : Thread nD τ).loc main_arg3)))) (m ((c.tc : Thread nD τ).loc main_arg4))) (m ((c.tc : Thread nD τ).loc main_arg1))) (Cert.Gcn.biasRow16 (m ((c.tc : Thread nD τ).loc main_arg5))) := by
  show after opsC (VB m c) (Proc.devRef .tc main_v63) = _
  read_stretch
  rw [VB_src, VB_dst, VB_norm, VB_dense, VB_arg5]
  rfl

/-- Stretch C writes no argument buffer. -/
theorem VC_arg0 (c : Dev nD) : VC m c (Proc.devRef .tc main_arg0) = m ((c.tc : Thread nD τ).loc main_arg0) := by
  show after opsC (VB m c) (Proc.devRef .tc main_arg0) = _
  read_stretch
  exact VB_arg0 m c
theorem VC_arg1 (c : Dev nD) : VC m c (Proc.devRef .tc main_arg1) = m ((c.tc : Thread nD τ).loc main_arg1) := by
  show after opsC (VB m c) (Proc.devRef .tc main_arg1) = _
  read_stretch
  exact VB_arg1 m c
theorem VC_arg2 (c : Dev nD) : VC m c (Proc.devRef .tc main_arg2) = m ((c.tc : Thread nD τ).loc main_arg2) := by
  show after opsC (VB m c) (Proc.devRef .tc main_arg2) = _
  read_stretch
  exact VB_arg2 m c
theorem VC_arg3 (c : Dev nD) : VC m c (Proc.devRef .tc main_arg3) = m ((c.tc : Thread nD τ).loc main_arg3) := by
  show after opsC (VB m c) (Proc.devRef .tc main_arg3) = _
  read_stretch
  exact VB_arg3 m c
theorem VC_arg4 (c : Dev nD) : VC m c (Proc.devRef .tc main_arg4) = m ((c.tc : Thread nD τ).loc main_arg4) := by
  show after opsC (VB m c) (Proc.devRef .tc main_arg4) = _
  read_stretch
  exact VB_arg4 m c
theorem VC_arg5 (c : Dev nD) : VC m c (Proc.devRef .tc main_arg5) = m ((c.tc : Thread nD τ).loc main_arg5) := by
  show after opsC (VB m c) (Proc.devRef .tc main_arg5) = _
  read_stretch
  exact VB_arg5 m c

/-! ## Stretch D -/

/-- After stretch D the result buffer holds the specification's network of the six arguments. -/
theorem VD_out (c : Dev nD) :
    VD m c (Proc.devRef .tc main_v64) = Cert.Gcn.gcn (F := Ideal) (m ((c.tc : Thread nD τ).loc main_arg0)) (m ((c.tc : Thread nD τ).loc main_arg1)) (m ((c.tc : Thread nD τ).loc main_arg2)) (Cert.Gcn.biasRow64 (m ((c.tc : Thread nD τ).loc main_arg3))) (m ((c.tc : Thread nD τ).loc main_arg4)) (Cert.Gcn.biasRow16 (m ((c.tc : Thread nD τ).loc main_arg5))) := by
  show after opsD (VC m c) (Proc.devRef .tc main_v64) = _
  read_stretch
  rw [VC_logits]
  rfl

/-- Stretch D writes no argument buffer. -/
theorem VD_arg0 (c : Dev nD) : VD m c (Proc.devRef .tc main_arg0) = m ((c.tc : Thread nD τ).loc main_arg0) := by
  show after opsD (VC m c) (Proc.devRef .tc main_arg0) = _
  read_stretch
  exact VC_arg0 m c
theorem VD_arg1 (c : Dev nD) : VD m c (Proc.devRef .tc main_arg1) = m ((c.tc : Thread nD τ).loc main_arg1) := by
  show after opsD (VC m c) (Proc.devRef .tc main_arg1) = _
  read_stretch
  exact VC_arg1 m c
theorem VD_arg2 (c : Dev nD) : VD m c (Proc.devRef .tc main_arg2) = m ((c.tc : Thread nD τ).loc main_arg2) := by
  show after opsD (VC m c) (Proc.devRef .tc main_arg2) = _
  read_stretch
  exact VC_arg2 m c
theorem VD_arg3 (c : Dev nD) : VD m c (Proc.devRef .tc main_arg3) = m ((c.tc : Thread nD τ).loc main_arg3) := by
  show after opsD (VC m c) (Proc.devRef .tc main_arg3) = _
  read_stretch
  exact VC_arg3 m c
theorem VD_arg4 (c : Dev nD) : VD m c (Proc.devRef .tc main_arg4) = m ((c.tc : Thread nD τ).loc main_arg4) := by
  show after opsD (VC m c) (Proc.devRef .tc main_arg4) = _
  read_stretch
  exact VC_arg4 m c
theorem VD_arg5 (c : Dev nD) : VD m c (Proc.devRef .tc main_arg5) = m ((c.tc : Thread nD τ).loc main_arg5) := by
  show after opsD (VC m c) (Proc.devRef .tc main_arg5) = _
  read_stretch
  exact VC_arg5 m c

/-! ## The run -/

/-- No operation of a stretch allocates a buffer. -/
theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h
theorem ops_fresh : ∀ op ∈ (ops : List (HloOp τ sig (Elt F))), op.fresh = ∅ := by
  intro op h
  rcases List.mem_append.mp h with h | h
  · rcases List.mem_append.mp h with h | h
    · rcases List.mem_append.mp h with h | h
      · exact opsA_fresh op h
      · exact opsB_fresh op h
    · exact opsC_fresh op h
  · exact opsD_fresh op h

/-- On every device, from any memory with zero counters: every weakly fair execution of the reference program
    terminates with the result buffer at the specification's network of the six arguments (the two bias vectors
    as rows) and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v64) = Cert.Gcn.gcn (F := Ideal) (m ((c.tc : Thread nD τ).loc main_arg0)) (m ((c.tc : Thread nD τ).loc main_arg1)) (m ((c.tc : Thread nD τ).loc main_arg2)) (Cert.Gcn.biasRow64 (m ((c.tc : Thread nD τ).loc main_arg3))) (m ((c.tc : Thread nD τ).loc main_arg4)) (Cert.Gcn.biasRow16 (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v64).trans ((congrFun (after_ops m c) _).trans (VD_out m c)),
       (h c main_arg0).trans ((congrFun (after_ops m c) _).trans (VD_arg0 m c)),
       (h c main_arg1).trans ((congrFun (after_ops m c) _).trans (VD_arg1 m c)),
       (h c main_arg2).trans ((congrFun (after_ops m c) _).trans (VD_arg2 m c)),
       (h c main_arg3).trans ((congrFun (after_ops m c) _).trans (VD_arg3 m c)),
       (h c main_arg4).trans ((congrFun (after_ops m c) _).trans (VD_arg4 m c)),
       (h c main_arg5).trans ((congrFun (after_ops m c) _).trans (VD_arg5 m c))⟩)
    (run_seq scopedRefs_eq scopedSems_eq defs main (fun _ => ops) main_eq (fun _ => ops_sub) m ρ (fun _ => ops_fresh))

end Cert.ReferenceIdeal.RunH

end
-- ==== Proof.lean ====
/-
  A two-layer graph convolution, tiled kernels against plain array code, at the exact real instance.

  Both programs compute, from node features `x`, an edge list `e`, two weight matrices and two bias vectors,

      log_softmax_rows ( P ( relu ( P (x · W1) + b1 ) · W2 ) + b2 ),

  where `P h = scatter-add over the edges' destinations of h[source] · d^(-1/2)[source] · d^(-1/2)[destination]`,
  the edge list extended by one self-loop per node and `d = max(degree, 1)`. The kernel program computes the two dense
  products, the biased positive part and the biased row-wise log-softmax in four tiled regions of ten row blocks of
  5000 rows each, and the gathers and scatter-adds between them by the same host operations as the reference.

  The proof: the kernel program's run ends with its result at the last segment boundary's contents (`KernelRun`);
  walking the boundaries back, each region leaves the specification's whole-array function of what it found
  (`RegionDense1`, `RegionRelu`, `RegionDense2`, `RegionSoftmax`: every output row block is that function read through
  the block, and the ten blocks cover the array) and each host stretch is the specification's propagation
  (`FoldEntry`, `FoldStages`), so the result is the specification's network of the arguments (`KernelValue`). At one
  entry a tiled matrix product into a zero accumulator and the host's product are the same sum over the inner
  coordinate, and a block's row maximum and row sum are the host's over the same sixteen entries
  (`DensePoints`, `SoftmaxRows`). The reference's run, read in four stretches of host operations, ends at the same network (`RefRun`).
  No algebraic law beyond `0 + s = s` and `max(−inf, a) = a` is used, so the precondition is never opened.
  The kernel's idealization rewrote nothing, so it is preserved trivially.
-/
import proofs.«142514_j84009560309789_1_alg».proof.Defs
import proofs.«142514_j84009560309789_1_alg».proof.Proof.Gen.Kernel
import proofs.«142514_j84009560309789_1_alg».proof.Proof.Gen.Kernel.Skeleton
import proofs.«142514_j84009560309789_1_alg».proof.Proof.Gen.Kernel.Launch
import proofs.«142514_j84009560309789_1_alg».proof.Proof.Gen.Kernel.Points
import proofs.«142514_j84009560309789_1_alg».proof.Proof.Gen.Kernel.Frame
import proofs.«142514_j84009560309789_1_alg».proof.Proof.Gen.KernelIdeal
import proofs.«142514_j84009560309789_1_alg».proof.Proof.Gen.KernelIdeal.Skeleton
import proofs.«142514_j84009560309789_1_alg».proof.Proof.Gen.KernelIdeal.Launch
import proofs.«142514_j84009560309789_1_alg».proof.Proof.Gen.KernelIdeal.Points
import proofs.«142514_j84009560309789_1_alg».proof.Proof.Gen.KernelIdeal.Frame
import proofs.«142514_j84009560309789_1_alg».proof.Proof.Gen.ReferenceIdeal
import proofs.«142514_j84009560309789_1_alg».proof.Proof.Gen.Pre_finite_inputs
import proofs.«142514_j84009560309789_1_alg».proof.Proof.KernelRun
import proofs.«142514_j84009560309789_1_alg».proof.Proof.KernelValue
import proofs.«142514_j84009560309789_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.RunH.run m ρ)

/-- The idealization rewrote no operation. -/
theorem preserves : Cert.preserves_Kernel_KernelIdeal := trivial

/-- Both programs end at the specification's network of the arguments, and the arguments agree. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.Gcn.biasRow64 (m ((c.tc : Thread Cert.KernelIdeal.nD Cert.KernelIdeal.τ).loc Cert.KernelIdeal.main_arg3)))
      (m ((c.tc : Thread Cert.KernelIdeal.nD Cert.KernelIdeal.τ).loc Cert.KernelIdeal.main_arg4))
      (Cert.Gcn.biasRow16 (m ((c.tc : Thread Cert.KernelIdeal.nD Cert.KernelIdeal.τ).loc Cert.KernelIdeal.main_arg5))), ?_, ?_⟩
  · exact (θ_run Cert.KernelIdeal.defs _ _).mono
      (fun r h c => ⟨(h c).1.trans (Cert.Gcn.Fold.result_eq m ρ c), (h c).2⟩) (Cert.KernelIdeal.RunV.run_result m ρ)
  · refine (θ_run Cert.ReferenceIdeal.defs _ _).mono (fun _ h c => ⟨(h c).1.trans ?_, (h c).2⟩)
      (Cert.ReferenceIdeal.RunH.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
